-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S10000x128 : Shape := ⟨2, ![10000, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_7 : BitVec 32 := 0#32
  let v16 : BitVec 1 := Scalar.cmpi .ne v15 c0_i32_7
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S10000x128_S10000x128 : S10000x128.ShapeCasts S10000x128
  reduces_S10000x128_S128 : S10000x128.Reduces [0] S128
  shapeCasts_S1x128_S128 : S1x128.ShapeCasts S128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.BitsLinear.lean ====
/- The projection kernel's half of the frame, at a parameter `V`: the buffer contents the region is
   entered with. The kernel body loads its three input blocks whole (the feature block, the weight
   matrix, the bias), loads its output buffer once without using what it read, and stores one value
   — the payload `Gen.k0_pay1` of the three loads — over the whole output buffer. So what the body
   leaves in the output window's buffer is a closed function of the three input blocks at the point
   (`out0_3`, which is the payload itself: `out0_3_eq`), and each input buffer holds that window's block
   at every point, whether the pipeline fetched it there or not (the weight and the bias are fetched
   once, their block index never moves). -/
import proofs.«111101_j4672924418326_1_alg».proof.Proof.Gen.Kernel.Launch
import proofs.«111101_j4672924418326_1_alg».proof.Proof.Gen.Kernel.Skeleton
import proofs.«111101_j4672924418326_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose
    array is `V`'s (`hA`) and whose body leaves the block in place (`hafter`): the window is fetched at
    every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's: fetched at the first point only, but its block index is constant, so at a later point
    the buffer still holds the first point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias window's: as the weight's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S128 := Rect.unit (s := S128) ![0] S128.size inb_S128_S128_0

/-! ## What the body leaves in the output window's buffer -/

/-- The output window's staging buffer after the body, from the three input blocks: its one store as a piece
    whose payload is the skeleton's, over what the three loads read. -/
def out0_3 (x0 : Vec F S10000x128 .f32) (x1 : Vec F S128x128 .f32) (x2 : Vec F S128 .f32) : Vec F S10000x128 .f32 :=
  View.canon [⟨r0_0, k0_pay1 (View.ld x0 r0_0) (View.ld x1 r0_1) (View.ld x2 r0_2)⟩]

/-- The store's rectangle is the whole buffer, so it covers it. -/
theorem cover0_3 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The kernel body on whole staging memrefs, the inputs' at read contents `x0 x1 x2` and the output's at anything,
    runs to the continuation holding the inputs' as they were and the output's at `out0_3` of them. The load of the
    output buffer reads whatever is there and is not used. -/
theorem sound_kernel0 (c : Dev nD) (E : Set ℕ) (i : grid0.Coords)
    (arg0 : Memref sig .tc .vmem S10000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S10000x128 .f32) (harg3 : arg3.IsWhole)
    (x0 : Vec F S10000x128 .f32) (x1 : Vec F S128x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the projection pipeline on core `c`: the arrays as the region finds them (`V`); after the
    body at point `t` each input's buffer at its block and the output's at `out0_3` of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output buffer after the body is the payload of the three blocks -/

/-- The offsets of the rank-2 rectangles are all zero, -/
theorem zeros2 : (![0, 0] : Fin 2 → Nat) = fun _ => 0 := funext fun a => by fin_cases a <;> rfl
/-- and so is the rank-1 rectangle's. -/
theorem zeros1 : (![0] : Fin 1 → Nat) = fun _ => 0 := funext fun a => by fin_cases a; rfl

/-- A store over the whole buffer read back is the stored value, and a load of the whole buffer is the buffer:
    the rectangles' offsets are all zero. -/
theorem out0_3_eq (x0 : Vec F S10000x128 .f32) (x1 : Vec F S128x128 .f32) (x2 : Vec F S128 .f32) :
    out0_3 x0 x1 x2 = k0_pay1 x0 x1 x2 := by
  unfold out0_3
  rw [View.canon_unit_zero (S := S10000x128) zeros2]
  rw [View.ld_unit_zero (S := S10000x128) zeros2, View.ld_unit_zero (S := S128x128) zeros2,
    View.ld_unit_zero (S := S128) zeros1]

end Cert.Kernel.Linear

end
-- ==== Proof.BitsReduceBase.lean ====
/-
  The reduction kernel (second pallas_call): what its runs share. The kernel walks the ten blocks of
  10000 rows of its one input array; a [1,128] accumulator lives in a scratch buffer that outlives
  the grid points: at the first point it is set to zero, at every point the column sums of the
  rectified block are added to it, and at the last point its multiple by a constant is stored into the
  one output block [1,128], which is written back at that point only. So the body has three control
  cases, told apart by the grid coordinate alone: the first point, a middle point, the last point.
  Stated here: the two branch conditions in closed form over the grid, where the output window is idle,
  the staging and scratch memrefs as the pipeline passes them, the block of the input window at a point,
  and the class invariant with the scratch buffer split off the other scoped buffers.
-/
import proofs.«111101_j4672924418326_1_alg».proof.Proof.Gen.Kernel.Launch
import proofs.«111101_j4672924418326_1_alg».proof.Proof.Gen.Kernel.Skeleton
import proofs.«111101_j4672924418326_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions over the grid -/

/-- The first branch is taken exactly when the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch is taken exactly at the last point, coordinate nine. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

/-- The input window is never idle. -/
theorem liveAt1_0 : ∀ t : Fin cfg1.N, cfg1.idle 0 (grid1.coords t) = false := by decide +kernel
/-- Away from the last point the body stores nothing into the output block, -/
theorem idleAt1_1 : ∀ t : Fin cfg1.N, ¬cond1_1 (grid1.coords t) → cfg1.idle 1 (grid1.coords t) = true := by decide +kernel
/-- and the block is not written back there; -/
theorem noFlush1_1 : ∀ t : Fin cfg1.N, ¬cond1_1 (grid1.coords t) → (cfg1.win 1).flush t = false := by decide +kernel
/-- at the last point the body stores into it. -/
theorem liveAt1_1 : ∀ t : Fin cfg1.N, cond1_1 (grid1.coords t) → cfg1.idle 1 (grid1.coords t) = false := by decide +kernel

/-! ## The memrefs the body is called with -/

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
/-- The accumulator's scratch buffer, whole. -/
abbrev scM1 : Memref sig .tc .vmem S1x128 .f32 := Memref.whole cc1_scratch0
/-- One staging buffer of the output window and the scratch buffer as views: contents are stated through them. -/
abbrev VO1 : View sig .tc .vmem S1x128 .f32 := (Memref.whole cc1_stg1_0 : Memref sig .tc .vmem S1x128 .f32).view
abbrev VS1 : View sig .tc .vmem S1x128 .f32 := scM1.view

/-! ## The scoped buffers beside the scratch -/

/-- The scoped buffers that this pipeline does not stage — the six staging buffers of the other
    pipeline, each at some contents — followed by whatever is said of the scratch buffer. -/
abbrev scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant: those buffers, the scratch at some contents, and the generator register at some state. -/
theorem PhiA1_eq (c : Dev nD) :
    (Pipeline.ΦA spec1 c : sProp 𝕄)
      = iprop(scoped1 c (iprop(∃ d, owns (c : Thread nD τ) scM1 fullShare d)) ∗ (∃ r, prngReg c r)) := by
  unfold Pipeline.ΦA; rw [scopedRest1_eq]; simp only [scoped1, scM1, owns_whole]; try rfl

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point),
    for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Reduce

end
-- ==== Proof.BitsReduceRunA.lean ====
/-
  The reduction kernel's body run once, whole, in the case of the FIRST grid point (the accumulator is zeroed, then added to; nothing goes to the output block). The run is symbolic: the buffers are
  whole staging memrefs at given contents, both branch conditions are decided by the case's hypotheses,
  and what each store leaves is recorded as a list of pieces (rectangle, value), last store first.
  The lists are found by the run itself; the theorem packaged with them says that from the buffers at
  their contents the body reaches any continuation that accepts the buffers with those pieces written.
-/
import proofs.«111101_j4672924418326_1_alg».proof.Proof.BitsReduceBase

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- First point: the input block at x0, the output block's buffer at xi1 and handed back untouched, the
    scratch at anything; afterwards the scratch holds the pieces LS0 written. -/
noncomputable def kernelRun1_A (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i)
    (x0 : Vec F S10000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__reduce_kernel i arg1 harg1 arg2 harg2 arg3 harg3) K } := by
  refine ⟨[], ?_, fun xi1 E K => ?run⟩
  case run =>
    simp only [cc1__reduce_kernel_eq_skeleton]; unfold cc1__reduce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Reduce

end
-- ==== Proof.BitsReduceRunB.lean ====
/-
  The reduction kernel's body run once, whole, in the case of a MIDDLE grid point (the accumulator is added to; nothing goes to the output block). The run is symbolic: the buffers are
  whole staging memrefs at given contents, both branch conditions are decided by the case's hypotheses,
  and what each store leaves is recorded as a list of pieces (rectangle, value), last store first.
  The lists are found by the run itself; the theorem packaged with them says that from the buffers at
  their contents the body reaches any continuation that accepts the buffers with those pieces written.
-/
import proofs.«111101_j4672924418326_1_alg».proof.Proof.BitsReduceBase

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A middle point: the input block at x0, the output block's buffer at xi1 and handed back untouched, the
    scratch at what the point before left (xs0); afterwards the scratch holds the pieces LS0 written. -/
noncomputable def kernelRun1_B (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i)
    (x0 : Vec F S10000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__reduce_kernel i arg1 harg1 arg2 harg2 arg3 harg3) K } := by
  refine ⟨[], ?_, fun xi1 E K => ?run⟩
  case run =>
    simp only [cc1__reduce_kernel_eq_skeleton]; unfold cc1__reduce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Reduce

end
-- ==== Proof.BitsReduceRunC.lean ====
/-
  The reduction kernel's body run once, whole, in the case of the LAST grid point (the accumulator is added to, and its multiple by the constant is stored into the output block). The run is symbolic: the buffers are
  whole staging memrefs at given contents, both branch conditions are decided by the case's hypotheses,
  and what each store leaves is recorded as a list of pieces (rectangle, value), last store first.
  The lists are found by the run itself; the theorem packaged with them says that from the buffers at
  their contents the body reaches any continuation that accepts the buffers with those pieces written.
-/
import proofs.«111101_j4672924418326_1_alg».proof.Proof.BitsReduceBase

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last point: the input block at x0, the output block's buffer at anything, the scratch at what the
    point before left (xs0); afterwards the output buffer holds the pieces L1 and the scratch the pieces LS0. -/
noncomputable def kernelRun1_C (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i)
    (x0 : Vec F S10000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc1__reduce_kernel i arg1 harg1 arg2 harg2 arg3 harg3) K } := by
  refine ⟨?_, ?_, fun E K => ?run⟩
  case run =>
    simp only [cc1__reduce_kernel_eq_skeleton]; unfold cc1__reduce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Reduce

end
-- ==== Proof.BitsReduce.lean ====
/-
  The reduction kernel (second pallas_call): its half of the frame, at a parameter V, the buffers'
  contents when the region is entered. What each control case leaves in the output block's buffer and
  in the accumulator's scratch buffer is read back from the pieces the case's run found; what they hold
  after each grid point is then a recursion on the point (the first point starts the accumulator, every
  later point continues from what the point before left). The region's invariant before a point names
  the scratch buffer's contents: anything before the first point, what the recursion says afterwards.
  With that, the body obligation holds at every point, case by case.
-/
import proofs.«111101_j4672924418326_1_alg».proof.Proof.BitsReduceRunA
import proofs.«111101_j4672924418326_1_alg».proof.Proof.BitsReduceRunB
import proofs.«111101_j4672924418326_1_alg».proof.Proof.BitsReduceRunC

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- First point: nothing is stored into the output block (a placeholder that nothing consults). -/
def out1_A_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i) (x0 : Vec F S10000x128 .f32) : Vec F S1x128 .f32 :=
  VO1.read (Elt F) (VO1.writes (Elt F) VO1.junk (kernelRun1_A c i arg1 harg1 arg2 harg2 arg3 harg3 hc0 hc1 x0).1)
/-- First point: the stores into the scratch cover it, -/
theorem scover1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i) (x0 : Vec F S10000x128 .f32) (y : S1x128.Idx) :
    ∃ pc ∈ (kernelRun1_A c i arg1 harg1 arg2 harg2 arg3 harg3 hc0 hc1 x0).2.1, y ∈ pc.1.set :=
  View.cover_of_tiledL (kernelRun1_A c i arg1 harg1 arg2 harg2 arg3 harg3 hc0 hc1 x0).2.1 S1x128.size (by sl_kernel_rfl) y
/-- and this is what they leave there. -/
def sout1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i) (x0 : Vec F S10000x128 .f32) : Vec F S1x128 .f32 :=
  VS1.read (Elt F) (VS1.writes (Elt F) VS1.junk (kernelRun1_A c i arg1 harg1 arg2 harg2 arg3 harg3 hc0 hc1 x0).2.1)

/-- A middle point: nothing is stored into the output block (a placeholder that nothing consults). -/
def out1_B_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i) (x0 : Vec F S10000x128 .f32) (xs0 : Vec F S1x128 .f32) : Vec F S1x128 .f32 :=
  VO1.read (Elt F) (VO1.writes (Elt F) VO1.junk (kernelRun1_B c i arg1 harg1 arg2 harg2 arg3 harg3 hc0 hc1 x0 xs0).1)
theorem scover1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i) (x0 : Vec F S10000x128 .f32) (xs0 : Vec F S1x128 .f32) (y : S1x128.Idx) :
    ∃ pc ∈ (kernelRun1_B c i arg1 harg1 arg2 harg2 arg3 harg3 hc0 hc1 x0 xs0).2.1, y ∈ pc.1.set :=
  View.cover_of_tiledL (kernelRun1_B c i arg1 harg1 arg2 harg2 arg3 harg3 hc0 hc1 x0 xs0).2.1 S1x128.size (by sl_kernel_rfl) y
def sout1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i) (x0 : Vec F S10000x128 .f32) (xs0 : Vec F S1x128 .f32) : Vec F S1x128 .f32 :=
  VS1.read (Elt F) (VS1.writes (Elt F) VS1.junk (kernelRun1_B c i arg1 harg1 arg2 harg2 arg3 harg3 hc0 hc1 x0 xs0).2.1)

/-- The last point: the one store into the output block covers it, -/
theorem cover1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) (y : S1x128.Idx) :
    ∃ pc ∈ (kernelRun1_C c i arg1 harg1 arg2 harg2 arg3 harg3 hc0 hc1 x0 xs0).1, y ∈ pc.1.set :=
  View.cover_of_tiledL (kernelRun1_C c i arg1 harg1 arg2 harg2 arg3 harg3 hc0 hc1 x0 xs0).1 S1x128.size (by sl_kernel_rfl) y
def out1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) : Vec F S1x128 .f32 :=
  VO1.read (Elt F) (VO1.writes (Elt F) VO1.junk (kernelRun1_C c i arg1 harg1 arg2 harg2 arg3 harg3 hc0 hc1 x0 xs0).1)
theorem scover1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) (y : S1x128.Idx) :
    ∃ pc ∈ (kernelRun1_C c i arg1 harg1 arg2 harg2 arg3 harg3 hc0 hc1 x0 xs0).2.1, y ∈ pc.1.set :=
  View.cover_of_tiledL (kernelRun1_C c i arg1 harg1 arg2 harg2 arg3 harg3 hc0 hc1 x0 xs0).2.1 S1x128.size (by sl_kernel_rfl) y
def sout1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) : Vec F S1x128 .f32 :=
  VS1.read (Elt F) (VS1.writes (Elt F) VS1.junk (kernelRun1_C c i arg1 harg1 arg2 harg2 arg3 harg3 hc0 hc1 x0 xs0).2.1)

variable (V : (c : Dev nD) → (b : Ref sig .tc) → Buf (Elt F) ((c : Thread nD τ).loc b))

/-! ## The accumulation, point by point -/

/-- What the output block's buffer and the scratch hold after the body at position n (a pair): the first
    point's case at 0; afterwards the last point's case at 9 and the middle case elsewhere, each run from
    what position n - 1 left in the scratch. -/
def outsAt1 (c : Dev nD) : (n : ℕ) → n < cfg1.N → Vec F S1x128 .f32 × Vec F S1x128 .f32
  | 0, hn => (out1_A_1 c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩),
      sout1_A_0 c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩))
  | n + 1, hn =>
    if h1 : n + 1 = 9 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (outsAt1 c n (Nat.lt_of_succ_lt hn)).2)
    else
      (out1_B_1 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val = 0) (h1 : ¬t.val = 9) :
    outsAt1 V c t.val t.isLt = (out1_A_1 c (grid1.coords t) (ms1_0 t) (hs1_0 t) (ms1_1 t) (hs1_1 t) scM1 (Memref.isWhole_whole _) ((hcond1_0 t).mpr h0) (fun h => h1 ((hcond1_1 t).mp h)) (iblk1 V c 0 t),
      sout1_A_0 c (grid1.coords t) (ms1_0 t) (hs1_0 t) (ms1_1 t) (hs1_1 t) scM1 (Memref.isWhole_whole _) ((hcond1_0 t).mpr h0) (fun h => h1 ((hcond1_1 t).mp h)) (iblk1 V c 0 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 9) :
    outsAt1 V c t.val t.isLt = (out1_B_1 c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2,
      sout1_B_0 c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 9) :
    outsAt1 V c t.val t.isLt = (out1_C_1 c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2,
      sout1_C_0 c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position n: before the first point the class invariant (the scratch at anything); afterwards the
    scratch at what the point before left, the other scoped buffers at anything, the generator register at some state. -/
def PhiS (c : Dev nD) : (n : ℕ) → n ≤ cfg1.N → sProp 𝕄
  | 0, _ => Pipeline.ΦA spec1 c
  | n + 1, hn => iprop(scoped1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scoped1 c (owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(scoped1 c (owns (c : Thread nD τ) scM1 fullShare ((outsAt1 V c (n - 1) (by omega)).2)) ∗ (∃ r, prngReg c r)) := by
  cases n with
  | zero => exact absurd rfl hz
  | succ n => rfl

/-! ## The proof data -/

/-- The arrays as the region finds them; after the body at a point the input's buffer at its block and the
    output's at the recursion's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the input's memref holds its block; the closed forms say which case the point is
    in; the invariant hands the body the scratch at what the point before left (at anything at the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  by_cases h0 : t.val = 0
  · have h1 : ¬t.val = 9 := by omega
    rw [Dat.leavesExact_idle (dat1 V c) 1 t (idleAt1_1 t (fun h => h1 ((hcond1_1 t).mp h))) (noFlush1_1 t (fun h => h1 ((hcond1_1 t).mp h)))]
    rw [outsAt1_A V c t h0 h1]
    unfold sout1_A_0; (try dsimp only)
    rw [PhiS_castSucc V c t, PhiS_zero V c _ _ h0, PhiA1_eq]
    iintro ⟨⟨⟨A0, A1, A2, A3, A4, A5, HS0⟩, Hg⟩, Ho, ⟨%d0, H0⟩, ⟨%d1, H1⟩⟩
    iapply ((kernelRun1_A c (grid1.coords t) _ _ _ _ _ _ ((hcond1_0 t).mpr h0) (fun h => h1 ((hcond1_1 t).mp h)) (iblk1 V c 0 t)).2.2 _ Set.univ _)
    isplitl [H0]; · iexact H0
    isplitl [H1]; · iexact H1
    isplitl [HS0]; · iexact HS0
    iintro ⟨H0, H1, ⟨%es0, HS0⟩⟩
    isplitl [A0 A1 A2 A3 A4 A5 HS0 Hg]
    · isplitl [A0 A1 A2 A3 A4 A5 HS0]
      · isplitl [A0]; · iexact A0
        isplitl [A1]; · iexact A1
        isplitl [A2]; · iexact A2
        isplitl [A3]; · iexact A3
        isplitl [A4]; · iexact A4
        isplitl [A5]; · iexact A5
        unfold owns; iexists _; isplitr
        swap; · iexact HS0
        ipureintro; exact View.read_writes_of_cover _ _ _ _ _ (scover1_A_0 c _ _ _ _ _ _ _ _ _ _)
      iexact Hg
    isplitl [Ho]; · iexact Ho
    isplitl [H0]; · iexact H0
    iexists _; iexact H1
  · by_cases h1 : t.val = 9
    · rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C_1 sout1_C_0; (try dsimp only)
      rw [PhiS_castSucc V c t, PhiS_pos V c _ _ h0]
      iintro ⟨⟨⟨A0, A1, A2, A3, A4, A5, HS0⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [A0 A1 A2 A3 A4 A5 HS0 Hg]
      · isplitl [A0 A1 A2 A3 A4 A5 HS0]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS0
          ipureintro; exact View.read_writes_of_cover _ _ _ _ _ (scover1_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _)
    · rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B_0; (try dsimp only)
      rw [PhiS_castSucc V c t, PhiS_pos V c _ _ h0]
      iintro ⟨⟨⟨A0, A1, A2, A3, A4, A5, HS0⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2.2 _ Set.univ _)
      isplitl [H0]; · iexact H0
      isplitl [H1]; · iexact H1
      isplitl [HS0]; · iexact HS0
      iintro ⟨H0, H1, ⟨%es0, HS0⟩⟩
      isplitl [A0 A1 A2 A3 A4 A5 HS0 Hg]
      · isplitl [A0 A1 A2 A3 A4 A5 HS0]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS0
          ipureintro; exact View.read_writes_of_cover _ _ _ _ _ (scover1_B_0 c _ _ _ _ _ _ _ _ _ _ _)
        iexact Hg
      isplitl [Ho]; · iexact Ho
      isplitl [H0]; · iexact H0
      iexists _; iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := rfl

/-- After the last point the invariant gives the class's back: the scratch's named contents are forgotten. -/
theorem Phi1_last (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 10 := N_1; omega), PhiA1_eq]
  iintro ⟨⟨A0, A1, A2, A3, A4, A5, HS0⟩, Hg⟩
  isplitl [A0 A1 A2 A3 A4 A5 HS0]
  · isplitl [A0]; · iexact A0
    isplitl [A1]; · iexact A1
    isplitl [A2]; · iexact A2
    isplitl [A3]; · iexact A3
    isplitl [A4]; · iexact A4
    isplitl [A5]; · iexact A5
    iexists _; iexact HS0
  iexact Hg

end Cert.Kernel.Reduce

end
-- ==== Proof.BitsRun.lean ====
/-
  The whole program as a run. Its main function is four items in order: the projection kernel's region, a
  stretch of sixteen host operations (the edge gather, the scaling by the edge values, the scatter-add by
  destination), the reduction kernel's region, and one host reshape. Between two items a core holds every
  unscoped buffer whole at known contents: the launch memory at first; after a region, the same contents with
  the region's arrays at what its write-backs leave; after a host stretch, the stretch's operations applied.
  Each region is entered by splitting its arrays out of the unscoped buffers and left by putting them back at
  their final contents; its scoped buffers and the generator register go into its invariant and come out of
  it; no core ever owes another anything. The launch composes the four items, and at the end every unscoped
  buffer is read off the last contents. Everything is stated for any float instance.
-/
import proofs.«111101_j4672924418326_1_alg».proof.Proof.BitsLinear
import proofs.«111101_j4672924418326_1_alg».proof.Proof.BitsReduce
import proofs.«111101_j4672924418326_1_alg».proof.Proof.Gen.Kernel.Regions
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Linear Cert.Kernel.Reduce

variable (m : (ℓ : Loc nD τ sig) → Buf (Elt F) ℓ) (ρ : Dev nD → PrngReg)

/-! ## The buffers' contents between the items -/

/-- Core c's buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- After the projection kernel's region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the sixteen host operations (the reduction kernel's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the reduction kernel's region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host operation: the contents every final memory holds. -/
abbrev W4 : Dev nD → Valuation τ sig (Elt F) := fun c => StableHlo.after hostOps2 (W3 m ρ c)

/-! ## A buffer no item writes keeps its launch contents -/

/-- A buffer that neither host stretch writes and that is no array of the reduction kernel holds at the end what
    it held after the first region. -/
theorem W4_eq_W1 (c : Dev nD) (b : Ref sig .tc) (h2 : b ∉ hostOps2_W) (hs : ∀ w, Pipeline.arrRef spec1 w ≠ b) (h1 : b ∉ hostOps1_W) :
    W4 m ρ c (Proc.devRef .tc b) = W1 m ρ c (Proc.devRef .tc b) :=
  (StableHlo.after_of_writes_sub hostOps2 _ hostOps2_writes h2).trans <|
    (W3_of_ne m ρ c b hs).trans (StableHlo.after_of_writes_sub hostOps1 _ hostOps1_writes h1)

/-- An input array of the projection kernel is never written by it. -/
theorem W1_input (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

theorem W4_main_arg0 (c : Dev nD) : W4 m ρ c (Proc.devRef .tc main_arg0) = m ((c : Thread nD τ).loc main_arg0) :=
  (W4_eq_W1 m ρ c main_arg0 (by decide) (by decide) (by decide)).trans ((W1_input m ρ c 0 rfl).trans rfl)
theorem W4_main_arg1 (c : Dev nD) : W4 m ρ c (Proc.devRef .tc main_arg1) = m ((c : Thread nD τ).loc main_arg1) :=
  (W4_eq_W1 m ρ c main_arg1 (by decide) (by decide) (by decide)).trans ((W1_of_ne m ρ c main_arg1 (by decide)).trans rfl)
theorem W4_main_arg2 (c : Dev nD) : W4 m ρ c (Proc.devRef .tc main_arg2) = m ((c : Thread nD τ).loc main_arg2) :=
  (W4_eq_W1 m ρ c main_arg2 (by decide) (by decide) (by decide)).trans ((W1_of_ne m ρ c main_arg2 (by decide)).trans rfl)
theorem W4_main_arg3 (c : Dev nD) : W4 m ρ c (Proc.devRef .tc main_arg3) = m ((c : Thread nD τ).loc main_arg3) :=
  (W4_eq_W1 m ρ c main_arg3 (by decide) (by decide) (by decide)).trans ((W1_of_ne m ρ c main_arg3 (by decide)).trans rfl)
theorem W4_main_arg4 (c : Dev nD) : W4 m ρ c (Proc.devRef .tc main_arg4) = m ((c : Thread nD τ).loc main_arg4) :=
  (W4_eq_W1 m ρ c main_arg4 (by decide) (by decide) (by decide)).trans ((W1_input m ρ c 1 rfl).trans rfl)
theorem W4_main_arg5 (c : Dev nD) : W4 m ρ c (Proc.devRef .tc main_arg5) = m ((c : Thread nD τ).loc main_arg5) :=
  (W4_eq_W1 m ρ c main_arg5 (by decide) (by decide) (by decide)).trans ((W1_input m ρ c 2 rfl).trans rfl)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as an item: its operations over the unscoped references from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- The projection kernel's region: entered from the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reduction kernel's region: entered from W2, left at W3. Its invariant is the class's before the first
    point and gives the class's back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as items, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The main function IS the run of the items. -/
theorem main_run (c : Dev nD) : main (F := F) c = Pipeline.Seg.run (segs m ρ) := (main_chain c).trans (by chain_rfl)

set_option backward.isDefEq.respectTransparency.types false in
/-- THE RUN: from any memory with zero counters, every weakly fair execution of the main function on the
    TensorCores terminates, nothing faulting, and every final state holds every unscoped buffer at W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Whole

end
-- ==== Proof.IdealLinear.lean ====
/- The projection kernel's half of the frame, at a parameter `V`: the buffer contents the region is
   entered with. The kernel body loads its three input blocks whole (the feature block, the weight
   matrix, the bias), loads its output buffer once without using what it read, and stores one value
   — the payload `Gen.k0_pay1` of the three loads — over the whole output buffer. So what the body
   leaves in the output window's buffer is a closed function of the three input blocks at the point
   (`out0_3`, which is the payload itself: `out0_3_eq`), and each input buffer holds that window's block
   at every point, whether the pipeline fetched it there or not (the weight and the bias are fetched
   once, their block index never moves). -/
import proofs.«111101_j4672924418326_1_alg».proof.Proof.Gen.KernelIdeal.Launch
import proofs.«111101_j4672924418326_1_alg».proof.Proof.Gen.KernelIdeal.Skeleton
import proofs.«111101_j4672924418326_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long extents recurses once per coordinate of the long axes
set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose
    array is `V`'s (`hA`) and whose body leaves the block in place (`hafter`): the window is fetched at
    every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's: fetched at the first point only, but its block index is constant, so at a later point
    the buffer still holds the first point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias window's: as the weight's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S128 := Rect.unit (s := S128) ![0] S128.size inb_S128_S128_0

/-! ## What the body leaves in the output window's buffer -/

/-- The output window's staging buffer after the body, from the three input blocks: its one store as a piece
    whose payload is the skeleton's, over what the three loads read. -/
def out0_3 (x0 : Vec F S10000x128 .f32) (x1 : Vec F S128x128 .f32) (x2 : Vec F S128 .f32) : Vec F S10000x128 .f32 :=
  View.canon [⟨r0_0, k0_pay1 (View.ld x0 r0_0) (View.ld x1 r0_1) (View.ld x2 r0_2)⟩]

/-- The store's rectangle is the whole buffer, so it covers it. -/
theorem cover0_3 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The kernel body on whole staging memrefs, the inputs' at read contents `x0 x1 x2` and the output's at anything,
    runs to the continuation holding the inputs' as they were and the output's at `out0_3` of them. The load of the
    output buffer reads whatever is there and is not used. -/
theorem sound_kernel0 (c : Dev nD) (E : Set ℕ) (i : grid0.Coords)
    (arg0 : Memref sig .tc .vmem S10000x128 .f32) (harg0 : arg0.IsWhole) (arg1 : Memref sig .tc .vmem S128x128 .f32) (harg1 : arg1.IsWhole)
    (arg2 : Memref sig .tc .vmem S128 .f32) (harg2 : arg2.IsWhole) (arg3 : Memref sig .tc .vmem S10000x128 .f32) (harg3 : arg3.IsWhole)
    (x0 : Vec F S10000x128 .f32) (x1 : Vec F S128x128 .f32) (x2 : Vec F S128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the projection pipeline on core `c`: the arrays as the region finds them (`V`); after the
    body at point `t` each input's buffer at its block and the output's at `out0_3` of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output buffer after the body is the payload of the three blocks -/

/-- The offsets of the rank-2 rectangles are all zero, -/
theorem zeros2 : (![0, 0] : Fin 2 → Nat) = fun _ => 0 := funext fun a => by fin_cases a <;> rfl
/-- and so is the rank-1 rectangle's. -/
theorem zeros1 : (![0] : Fin 1 → Nat) = fun _ => 0 := funext fun a => by fin_cases a; rfl

/-- A store over the whole buffer read back is the stored value, and a load of the whole buffer is the buffer:
    the rectangles' offsets are all zero. -/
theorem out0_3_eq (x0 : Vec F S10000x128 .f32) (x1 : Vec F S128x128 .f32) (x2 : Vec F S128 .f32) :
    out0_3 x0 x1 x2 = k0_pay1 x0 x1 x2 := by
  unfold out0_3
  rw [View.canon_unit_zero (S := S10000x128) zeros2]
  rw [View.ld_unit_zero (S := S10000x128) zeros2, View.ld_unit_zero (S := S128x128) zeros2,
    View.ld_unit_zero (S := S128) zeros1]

end Cert.KernelIdeal.Linear

end
-- ==== Proof.IdealReduceBase.lean ====
/-
  The reduction kernel (second pallas_call): what its runs share. The kernel walks the ten blocks of
  10000 rows of its one input array; a [1,128] accumulator lives in a scratch buffer that outlives
  the grid points: at the first point it is set to zero, at every point the column sums of the
  rectified block are added to it, and at the last point its multiple by a constant is stored into the
  one output block [1,128], which is written back at that point only. So the body has three control
  cases, told apart by the grid coordinate alone: the first point, a middle point, the last point.
  Stated here: the two branch conditions in closed form over the grid, where the output window is idle,
  the staging and scratch memrefs as the pipeline passes them, the block of the input window at a point,
  and the class invariant with the scratch buffer split off the other scoped buffers.
-/
import proofs.«111101_j4672924418326_1_alg».proof.Proof.Gen.KernelIdeal.Launch
import proofs.«111101_j4672924418326_1_alg».proof.Proof.Gen.KernelIdeal.Skeleton
import proofs.«111101_j4672924418326_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branch conditions over the grid -/

/-- The first branch is taken exactly when the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch is taken exactly at the last point, coordinate nine. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

/-- The input window is never idle. -/
theorem liveAt1_0 : ∀ t : Fin cfg1.N, cfg1.idle 0 (grid1.coords t) = false := by decide +kernel
/-- Away from the last point the body stores nothing into the output block, -/
theorem idleAt1_1 : ∀ t : Fin cfg1.N, ¬cond1_1 (grid1.coords t) → cfg1.idle 1 (grid1.coords t) = true := by decide +kernel
/-- and the block is not written back there; -/
theorem noFlush1_1 : ∀ t : Fin cfg1.N, ¬cond1_1 (grid1.coords t) → (cfg1.win 1).flush t = false := by decide +kernel
/-- at the last point the body stores into it. -/
theorem liveAt1_1 : ∀ t : Fin cfg1.N, cond1_1 (grid1.coords t) → cfg1.idle 1 (grid1.coords t) = false := by decide +kernel

/-! ## The memrefs the body is called with -/

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
/-- The accumulator's scratch buffer, whole. -/
abbrev scM1 : Memref sig .tc .vmem S1x128 .f32 := Memref.whole cc1_scratch0
/-- One staging buffer of the output window and the scratch buffer as views: contents are stated through them. -/
abbrev VO1 : View sig .tc .vmem S1x128 .f32 := (Memref.whole cc1_stg1_0 : Memref sig .tc .vmem S1x128 .f32).view
abbrev VS1 : View sig .tc .vmem S1x128 .f32 := scM1.view

/-! ## The scoped buffers beside the scratch -/

/-- The scoped buffers that this pipeline does not stage — the six staging buffers of the other
    pipeline, each at some contents — followed by whatever is said of the scratch buffer. -/
abbrev scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant: those buffers, the scratch at some contents, and the generator register at some state. -/
theorem PhiA1_eq (c : Dev nD) :
    (Pipeline.ΦA spec1 c : sProp 𝕄)
      = iprop(scoped1 c (iprop(∃ d, owns (c : Thread nD τ) scM1 fullShare d)) ∗ (∃ r, prngReg c r)) := by
  unfold Pipeline.ΦA; rw [scopedRest1_eq]; simp only [scoped1, scM1, owns_whole]; try rfl

section Blocks
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point),
    for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Reduce

end
-- ==== Proof.IdealReduceRunA.lean ====
/-
  The reduction kernel's body run once, whole, in the case of the FIRST grid point (the accumulator is zeroed, then added to; nothing goes to the output block). The run is symbolic: the buffers are
  whole staging memrefs at given contents, both branch conditions are decided by the case's hypotheses,
  and what each store leaves is recorded as a list of pieces (rectangle, value), last store first.
  The lists are found by the run itself; the theorem packaged with them says that from the buffers at
  their contents the body reaches any continuation that accepts the buffers with those pieces written.
-/
import proofs.«111101_j4672924418326_1_alg».proof.Proof.IdealReduceBase

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- First point: the input block at x0, the output block's buffer at xi1 and handed back untouched, the
    scratch at anything; afterwards the scratch holds the pieces LS0 written. -/
noncomputable def kernelRun1_A (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i)
    (x0 : Vec F S10000x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__reduce_kernel i arg1 harg1 arg2 harg2 arg3 harg3) K } := by
  refine ⟨[], ?_, fun xi1 E K => ?run⟩
  case run =>
    simp only [cc1__reduce_kernel_eq_skeleton]; unfold cc1__reduce_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Reduce

end
-- ==== Proof.IdealReduceRunB.lean ====
/-
  The reduction kernel's body run once, whole, in the case of a MIDDLE grid point (the accumulator is added to; nothing goes to the output block). The run is symbolic: the buffers are
  whole staging memrefs at given contents, both branch conditions are decided by the case's hypotheses,
  and what each store leaves is recorded as a list of pieces (rectangle, value), last store first.
  The lists are found by the run itself; the theorem packaged with them says that from the buffers at
  their contents the body reaches any continuation that accepts the buffers with those pieces written.
-/
import proofs.«111101_j4672924418326_1_alg».proof.Proof.IdealReduceBase

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- A middle point: the input block at x0, the output block's buffer at xi1 and handed back untouched, the
    scratch at what the point before left (xs0); afterwards the scratch holds the pieces LS0 written. -/
noncomputable def kernelRun1_B (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i)
    (x0 : Vec F S10000x128 .f32) (xs0 : Vec F S1x128 .f32) :
    Σ' (L1 : List (View.Piece (Elt F) S1x128 .f32)), { LS0 : List (View.Piece (Elt F) S1x128 .f32) //
      ∀ (xi1 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__reduce_kernel i arg1 harg1 arg2 harg2 arg3 harg3) K } := by
  refine ⟨[], ?_, fun xi1 E K => ?run⟩
  case run =>
    simp only [cc1__reduce_kernel_eq_skeleton]; unfold cc1__reduce_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Reduce

end
-- ==== Proof.IdealReduceRunC.lean ====
/-
  The reduction kernel's body run once, whole, in the case of the LAST grid point (the accumulator is added to, and its multiple by the constant is stored into the output block). The run is symbolic: the buffers are
  whole staging memrefs at given contents, both branch conditions are decided by the case's hypotheses,
  and what each store leaves is recorded as a list of pieces (rectangle, value), last store first.
  The lists are found by the run itself; the theorem packaged with them says that from the buffers at
  their contents the body reaches any continuation that accepts the buffers with those pieces written.
-/
import proofs.«111101_j4672924418326_1_alg».proof.Proof.IdealReduceBase

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The last point: the input block at x0, the output block's buffer at anything, the scratch at what the
    point before left (xs0); afterwards the output buffer holds the pieces L1 and the scratch the pieces LS0. -/
noncomputable def kernelRun1_C (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i)
    (x0 : Vec F S10000x128 .f32) (xs0 : Vec F S1x128 .f32) :
    Σ' (L1 : List (View.Piece (Elt F) S1x128 .f32)), { LS0 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc1__reduce_kernel i arg1 harg1 arg2 harg2 arg3 harg3) K } := by
  refine ⟨?_, ?_, fun E K => ?run⟩
  case run =>
    simp only [cc1__reduce_kernel_eq_skeleton]; unfold cc1__reduce_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Reduce

end
-- ==== Proof.IdealReduce.lean ====
/-
  The reduction kernel (second pallas_call): its half of the frame, at a parameter V, the buffers'
  contents when the region is entered. What each control case leaves in the output block's buffer and
  in the accumulator's scratch buffer is read back from the pieces the case's run found; what they hold
  after each grid point is then a recursion on the point (the first point starts the accumulator, every
  later point continues from what the point before left). The region's invariant before a point names
  the scratch buffer's contents: anything before the first point, what the recursion says afterwards.
  With that, the body obligation holds at every point, case by case.
-/
import proofs.«111101_j4672924418326_1_alg».proof.Proof.IdealReduceRunA
import proofs.«111101_j4672924418326_1_alg».proof.Proof.IdealReduceRunB
import proofs.«111101_j4672924418326_1_alg».proof.Proof.IdealReduceRunC

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What each case leaves -/

/-- First point: nothing is stored into the output block (a placeholder that nothing consults). -/
def out1_A_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i) (x0 : Vec F S10000x128 .f32) : Vec F S1x128 .f32 :=
  VO1.read (Elt F) (VO1.writes (Elt F) VO1.junk (kernelRun1_A c i arg1 harg1 arg2 harg2 arg3 harg3 hc0 hc1 x0).1)
/-- First point: the stores into the scratch cover it, -/
theorem scover1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i) (x0 : Vec F S10000x128 .f32) (y : S1x128.Idx) :
    ∃ pc ∈ (kernelRun1_A c i arg1 harg1 arg2 harg2 arg3 harg3 hc0 hc1 x0).2.1, y ∈ pc.1.set :=
  View.cover_of_tiledL (kernelRun1_A c i arg1 harg1 arg2 harg2 arg3 harg3 hc0 hc1 x0).2.1 S1x128.size (by sl_kernel_rfl) y
/-- and this is what they leave there. -/
def sout1_A_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i) (x0 : Vec F S10000x128 .f32) : Vec F S1x128 .f32 :=
  VS1.read (Elt F) (VS1.writes (Elt F) VS1.junk (kernelRun1_A c i arg1 harg1 arg2 harg2 arg3 harg3 hc0 hc1 x0).2.1)

/-- A middle point: nothing is stored into the output block (a placeholder that nothing consults). -/
def out1_B_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i) (x0 : Vec F S10000x128 .f32) (xs0 : Vec F S1x128 .f32) : Vec F S1x128 .f32 :=
  VO1.read (Elt F) (VO1.writes (Elt F) VO1.junk (kernelRun1_B c i arg1 harg1 arg2 harg2 arg3 harg3 hc0 hc1 x0 xs0).1)
theorem scover1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i) (x0 : Vec F S10000x128 .f32) (xs0 : Vec F S1x128 .f32) (y : S1x128.Idx) :
    ∃ pc ∈ (kernelRun1_B c i arg1 harg1 arg2 harg2 arg3 harg3 hc0 hc1 x0 xs0).2.1, y ∈ pc.1.set :=
  View.cover_of_tiledL (kernelRun1_B c i arg1 harg1 arg2 harg2 arg3 harg3 hc0 hc1 x0 xs0).2.1 S1x128.size (by sl_kernel_rfl) y
def sout1_B_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i) (x0 : Vec F S10000x128 .f32) (xs0 : Vec F S1x128 .f32) : Vec F S1x128 .f32 :=
  VS1.read (Elt F) (VS1.writes (Elt F) VS1.junk (kernelRun1_B c i arg1 harg1 arg2 harg2 arg3 harg3 hc0 hc1 x0 xs0).2.1)

/-- The last point: the one store into the output block covers it, -/
theorem cover1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) (y : S1x128.Idx) :
    ∃ pc ∈ (kernelRun1_C c i arg1 harg1 arg2 harg2 arg3 harg3 hc0 hc1 x0 xs0).1, y ∈ pc.1.set :=
  View.cover_of_tiledL (kernelRun1_C c i arg1 harg1 arg2 harg2 arg3 harg3 hc0 hc1 x0 xs0).1 S1x128.size (by sl_kernel_rfl) y
def out1_C_1 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) : Vec F S1x128 .f32 :=
  VO1.read (Elt F) (VO1.writes (Elt F) VO1.junk (kernelRun1_C c i arg1 harg1 arg2 harg2 arg3 harg3 hc0 hc1 x0 xs0).1)
theorem scover1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) (y : S1x128.Idx) :
    ∃ pc ∈ (kernelRun1_C c i arg1 harg1 arg2 harg2 arg3 harg3 hc0 hc1 x0 xs0).2.1, y ∈ pc.1.set :=
  View.cover_of_tiledL (kernelRun1_C c i arg1 harg1 arg2 harg2 arg3 harg3 hc0 hc1 x0 xs0).2.1 S1x128.size (by sl_kernel_rfl) y
def sout1_C_0 (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) : Vec F S1x128 .f32 :=
  VS1.read (Elt F) (VS1.writes (Elt F) VS1.junk (kernelRun1_C c i arg1 harg1 arg2 harg2 arg3 harg3 hc0 hc1 x0 xs0).2.1)

variable (V : (c : Dev nD) → (b : Ref sig .tc) → Buf (Elt F) ((c : Thread nD τ).loc b))

/-! ## The accumulation, point by point -/

/-- What the output block's buffer and the scratch hold after the body at position n (a pair): the first
    point's case at 0; afterwards the last point's case at 9 and the middle case elsewhere, each run from
    what position n - 1 left in the scratch. -/
def outsAt1 (c : Dev nD) : (n : ℕ) → n < cfg1.N → Vec F S1x128 .f32 × Vec F S1x128 .f32
  | 0, hn => (out1_A_1 c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩),
      sout1_A_0 c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr rfl) (fun h => (fun h' => by (try dsimp only at h'); omega) ((hcond1_1 ⟨0, hn⟩).mp h)) (iblk1 V c 0 ⟨0, hn⟩))
  | n + 1, hn =>
    if h1 : n + 1 = 9 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (outsAt1 c n (Nat.lt_of_succ_lt hn)).2,
        sout1_C_0 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) ((hcond1_1 ⟨n + 1, hn⟩).mpr h1) (iblk1 V c 0 ⟨n + 1, hn⟩) (outsAt1 c n (Nat.lt_of_succ_lt hn)).2)
    else
      (out1_B_1 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => (fun h' => by (try dsimp only at h'); omega) ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val = 0) (h1 : ¬t.val = 9) :
    outsAt1 V c t.val t.isLt = (out1_A_1 c (grid1.coords t) (ms1_0 t) (hs1_0 t) (ms1_1 t) (hs1_1 t) scM1 (Memref.isWhole_whole _) ((hcond1_0 t).mpr h0) (fun h => h1 ((hcond1_1 t).mp h)) (iblk1 V c 0 t),
      sout1_A_0 c (grid1.coords t) (ms1_0 t) (hs1_0 t) (ms1_1 t) (hs1_1 t) scM1 (Memref.isWhole_whole _) ((hcond1_0 t).mpr h0) (fun h => h1 ((hcond1_1 t).mp h)) (iblk1 V c 0 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 9) :
    outsAt1 V c t.val t.isLt = (out1_B_1 c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2,
      sout1_B_0 c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 9) :
    outsAt1 V c t.val t.isLt = (out1_C_1 c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2,
      sout1_C_0 c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before position n: before the first point the class invariant (the scratch at anything); afterwards the
    scratch at what the point before left, the other scoped buffers at anything, the generator register at some state. -/
def PhiS (c : Dev nD) : (n : ℕ) → n ≤ cfg1.N → sProp 𝕄
  | 0, _ => Pipeline.ΦA spec1 c
  | n + 1, hn => iprop(scoped1 c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scoped1 c (owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop(scoped1 c (owns (c : Thread nD τ) scM1 fullShare ((outsAt1 V c (n - 1) (by omega)).2)) ∗ (∃ r, prngReg c r)) := by
  cases n with
  | zero => exact absurd rfl hz
  | succ n => rfl

/-! ## The proof data -/

/-- The arrays as the region finds them; after the body at a point the input's buffer at its block and the
    output's at the recursion's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the input's memref holds its block; the closed forms say which case the point is
    in; the invariant hands the body the scratch at what the point before left (at anything at the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  by_cases h0 : t.val = 0
  · have h1 : ¬t.val = 9 := by omega
    rw [Dat.leavesExact_idle (dat1 V c) 1 t (idleAt1_1 t (fun h => h1 ((hcond1_1 t).mp h))) (noFlush1_1 t (fun h => h1 ((hcond1_1 t).mp h)))]
    rw [outsAt1_A V c t h0 h1]
    unfold sout1_A_0; (try dsimp only)
    rw [PhiS_castSucc V c t, PhiS_zero V c _ _ h0, PhiA1_eq]
    iintro ⟨⟨⟨A0, A1, A2, A3, A4, A5, HS0⟩, Hg⟩, Ho, ⟨%d0, H0⟩, ⟨%d1, H1⟩⟩
    iapply ((kernelRun1_A c (grid1.coords t) _ _ _ _ _ _ ((hcond1_0 t).mpr h0) (fun h => h1 ((hcond1_1 t).mp h)) (iblk1 V c 0 t)).2.2 _ Set.univ _)
    isplitl [H0]; · iexact H0
    isplitl [H1]; · iexact H1
    isplitl [HS0]; · iexact HS0
    iintro ⟨H0, H1, ⟨%es0, HS0⟩⟩
    isplitl [A0 A1 A2 A3 A4 A5 HS0 Hg]
    · isplitl [A0 A1 A2 A3 A4 A5 HS0]
      · isplitl [A0]; · iexact A0
        isplitl [A1]; · iexact A1
        isplitl [A2]; · iexact A2
        isplitl [A3]; · iexact A3
        isplitl [A4]; · iexact A4
        isplitl [A5]; · iexact A5
        unfold owns; iexists _; isplitr
        swap; · iexact HS0
        ipureintro; exact View.read_writes_of_cover _ _ _ _ _ (scover1_A_0 c _ _ _ _ _ _ _ _ _ _)
      iexact Hg
    isplitl [Ho]; · iexact Ho
    isplitl [H0]; · iexact H0
    iexists _; iexact H1
  · by_cases h1 : t.val = 9
    · rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C_1 sout1_C_0; (try dsimp only)
      rw [PhiS_castSucc V c t, PhiS_pos V c _ _ h0]
      iintro ⟨⟨⟨A0, A1, A2, A3, A4, A5, HS0⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [A0 A1 A2 A3 A4 A5 HS0 Hg]
      · isplitl [A0 A1 A2 A3 A4 A5 HS0]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS0
          ipureintro; exact View.read_writes_of_cover _ _ _ _ _ (scover1_C_0 c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _)
    · rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B_0; (try dsimp only)
      rw [PhiS_castSucc V c t, PhiS_pos V c _ _ h0]
      iintro ⟨⟨⟨A0, A1, A2, A3, A4, A5, HS0⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2.2 _ Set.univ _)
      isplitl [H0]; · iexact H0
      isplitl [H1]; · iexact H1
      isplitl [HS0]; · iexact HS0
      iintro ⟨H0, H1, ⟨%es0, HS0⟩⟩
      isplitl [A0 A1 A2 A3 A4 A5 HS0 Hg]
      · isplitl [A0 A1 A2 A3 A4 A5 HS0]
        · isplitl [A0]; · iexact A0
          isplitl [A1]; · iexact A1
          isplitl [A2]; · iexact A2
          isplitl [A3]; · iexact A3
          isplitl [A4]; · iexact A4
          isplitl [A5]; · iexact A5
          unfold owns; iexists _; isplitr
          swap; · iexact HS0
          ipureintro; exact View.read_writes_of_cover _ _ _ _ _ (scover1_B_0 c _ _ _ _ _ _ _ _ _ _ _)
        iexact Hg
      isplitl [Ho]; · iexact Ho
      isplitl [H0]; · iexact H0
      iexists _; iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_zero (c : Dev nD) : (dat1 V c).Φ 0 = Pipeline.ΦA spec1 c := rfl

/-- After the last point the invariant gives the class's back: the scratch's named contents are forgotten. -/
theorem Phi1_last (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 10 := N_1; omega), PhiA1_eq]
  iintro ⟨⟨A0, A1, A2, A3, A4, A5, HS0⟩, Hg⟩
  isplitl [A0 A1 A2 A3 A4 A5 HS0]
  · isplitl [A0]; · iexact A0
    isplitl [A1]; · iexact A1
    isplitl [A2]; · iexact A2
    isplitl [A3]; · iexact A3
    isplitl [A4]; · iexact A4
    isplitl [A5]; · iexact A5
    iexists _; iexact HS0
  iexact Hg

end Cert.KernelIdeal.Reduce

end
-- ==== Proof.IdealRun.lean ====
/-
  The whole program as a run. Its main function is four items in order: the projection kernel's region, a
  stretch of sixteen host operations (the edge gather, the scaling by the edge values, the scatter-add by
  destination), the reduction kernel's region, and one host reshape. Between two items a core holds every
  unscoped buffer whole at known contents: the launch memory at first; after a region, the same contents with
  the region's arrays at what its write-backs leave; after a host stretch, the stretch's operations applied.
  Each region is entered by splitting its arrays out of the unscoped buffers and left by putting them back at
  their final contents; its scoped buffers and the generator register go into its invariant and come out of
  it; no core ever owes another anything. The launch composes the four items, and at the end every unscoped
  buffer is read off the last contents. Everything is stated for any float instance.
-/
import proofs.«111101_j4672924418326_1_alg».proof.Proof.IdealLinear
import proofs.«111101_j4672924418326_1_alg».proof.Proof.IdealReduce
import proofs.«111101_j4672924418326_1_alg».proof.Proof.Gen.KernelIdeal.Regions
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.KernelIdeal.Linear Cert.KernelIdeal.Reduce

variable (m : (ℓ : Loc nD τ sig) → Buf (Elt F) ℓ) (ρ : Dev nD → PrngReg)

/-! ## The buffers' contents between the items -/

/-- Core c's buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- After the projection kernel's region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the sixteen host operations (the reduction kernel's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the reduction kernel's region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host operation: the contents every final memory holds. -/
abbrev W4 : Dev nD → Valuation τ sig (Elt F) := fun c => StableHlo.after hostOps2 (W3 m ρ c)

/-! ## A buffer no item writes keeps its launch contents -/

/-- A buffer that neither host stretch writes and that is no array of the reduction kernel holds at the end what
    it held after the first region. -/
theorem W4_eq_W1 (c : Dev nD) (b : Ref sig .tc) (h2 : b ∉ hostOps2_W) (hs : ∀ w, Pipeline.arrRef spec1 w ≠ b) (h1 : b ∉ hostOps1_W) :
    W4 m ρ c (Proc.devRef .tc b) = W1 m ρ c (Proc.devRef .tc b) :=
  (StableHlo.after_of_writes_sub hostOps2 _ hostOps2_writes h2).trans <|
    (W3_of_ne m ρ c b hs).trans (StableHlo.after_of_writes_sub hostOps1 _ hostOps1_writes h1)

/-- An input array of the projection kernel is never written by it. -/
theorem W1_input (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

theorem W4_main_arg0 (c : Dev nD) : W4 m ρ c (Proc.devRef .tc main_arg0) = m ((c : Thread nD τ).loc main_arg0) :=
  (W4_eq_W1 m ρ c main_arg0 (by decide) (by decide) (by decide)).trans ((W1_input m ρ c 0 rfl).trans rfl)
theorem W4_main_arg1 (c : Dev nD) : W4 m ρ c (Proc.devRef .tc main_arg1) = m ((c : Thread nD τ).loc main_arg1) :=
  (W4_eq_W1 m ρ c main_arg1 (by decide) (by decide) (by decide)).trans ((W1_of_ne m ρ c main_arg1 (by decide)).trans rfl)
theorem W4_main_arg2 (c : Dev nD) : W4 m ρ c (Proc.devRef .tc main_arg2) = m ((c : Thread nD τ).loc main_arg2) :=
  (W4_eq_W1 m ρ c main_arg2 (by decide) (by decide) (by decide)).trans ((W1_of_ne m ρ c main_arg2 (by decide)).trans rfl)
theorem W4_main_arg3 (c : Dev nD) : W4 m ρ c (Proc.devRef .tc main_arg3) = m ((c : Thread nD τ).loc main_arg3) :=
  (W4_eq_W1 m ρ c main_arg3 (by decide) (by decide) (by decide)).trans ((W1_of_ne m ρ c main_arg3 (by decide)).trans rfl)
theorem W4_main_arg4 (c : Dev nD) : W4 m ρ c (Proc.devRef .tc main_arg4) = m ((c : Thread nD τ).loc main_arg4) :=
  (W4_eq_W1 m ρ c main_arg4 (by decide) (by decide) (by decide)).trans ((W1_input m ρ c 1 rfl).trans rfl)
theorem W4_main_arg5 (c : Dev nD) : W4 m ρ c (Proc.devRef .tc main_arg5) = m ((c : Thread nD τ).loc main_arg5) :=
  (W4_eq_W1 m ρ c main_arg5 (by decide) (by decide) (by decide)).trans ((W1_input m ρ c 2 rfl).trans rfl)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as an item: its operations over the unscoped references from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- The projection kernel's region: entered from the launch contents, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reduction kernel's region: entered from W2, left at W3. Its invariant is the class's before the first
    point and gives the class's back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as items, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The main function IS the run of the items. -/
theorem main_run (c : Dev nD) : main (F := F) c = Pipeline.Seg.run (segs m ρ) := (main_chain c).trans (by chain_rfl)

set_option backward.isDefEq.respectTransparency.types false in
/-- THE RUN: from any memory with zero counters, every weakly fair execution of the main function on the
    TensorCores terminates, nothing faulting, and every final state holds every unscoped buffer at W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Whole

end
-- ==== Proof.Rows.lean ====
/-
  Blocks of rows. The row axis of a [100000,128] array is cut into ten consecutive blocks of 10000 rows;
  block t holds rows t·10000 … t·10000 + 9999. Here a block is read off the whole array as an array of its
  own, [10000,128], index by index: entry (r, j) of block t is entry (t·10000 + r, j) of the array.
-/
import proofs.«111101_j4672924418326_1_alg».proof.KernelIdeal
import Idealize.ShloMosaic.Lib.ValueIdx

noncomputable section

namespace Cert.Rows

open Idealize.ShloMosaic Idealize.ShloMosaic.ValueIdx

/-- Entry (r, j) of block t of the array A: entry (t·10000 + r, j) of A. The row and column numbers are
    taken modulo the extents, so that the definition asks no bound of t; for t < 10 nothing wraps. -/
def rowsBlock {α : Type} (A : (⟨2, ![100000, 128]⟩ : Shape).Idx → α) (t : ℕ) :
    (⟨2, ![10000, 128]⟩ : Shape).Idx → α :=
  fun y => A (ix2 (⟨(t * 10000 + (y 0).val) % 100000, Nat.mod_lt _ (by decide)⟩ : Fin 100000)
    (⟨(y 1).val % 128, Nat.mod_lt _ (by decide)⟩ : Fin 128))

/-- Read at explicit coordinates, for a block number below ten. -/
theorem rowsBlock_apply {α : Type} (A : (⟨2, ![100000, 128]⟩ : Shape).Idx → α) (t : ℕ) (ht : t < 10)
    (r : Fin 10000) (j : Fin 128) :
    rowsBlock A t (ix2 r j) = A (ix2 (⟨t * 10000 + r.val, by omega⟩ : Fin 100000) j) := by
  unfold rowsBlock
  congr 1
  funext a
  match a with
  | ⟨0, _⟩ => exact Fin.ext (Nat.mod_eq_of_lt (by show t * 10000 + r.val < 100000; omega))
  | ⟨1, _⟩ => exact Fin.ext (Nat.mod_eq_of_lt j.isLt)

end Cert.Rows

end
-- ==== Proof.IdealLinearValue.lean ====
/- What the projection region leaves in its output array, as one function of the three arrays it reads.
   The feature window's block at point t is rows t·10000 … t·10000 + 9999 of the feature array (the block
   index on the row axis is t, on the column axis 0: an element of a block sits in the array at
   index × size + its own coordinate); the weight's and the bias's blocks are their whole arrays (block
   index 0 on every axis). The output's blocks are the same row blocks, each written back at its point,
   and together they tile the output array: row n lies in the block of point n / 10000, at row
   n % 10000 of it. So after the region the output array at (n, j) is the body's payload of row block
   n / 10000 of the features, the weights and the bias, read at (n % 10000, j). -/
import proofs.«111101_j4672924418326_1_alg».proof.Proof.IdealLinear
import proofs.«111101_j4672924418326_1_alg».proof.Proof.Rows
import Idealize.ShloMosaic.Lib.Pipeline.Value
import Idealize.ShloMosaic.Lib.ValueIdx
import Idealize.ShloMosaic.Lib.Tactic

-- membership in a rectangle of long extents recurses once per coordinate of the long axes
set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F] [Named F]

variable (V : (c : Dev nD) → (b : Ref sig .tc) → Buf (Elt F) ((c : Thread nD τ).loc b))

/-! ## The block indices, decided once over the grid -/

/-- At point t the feature and the output windows are on row block t, column block 0; the weight's and the
    bias's block index is 0 on every axis. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The grid's points are numbered below ten. -/
theorem point_lt (t : Fin cfg0.N) : t.val < 10 := by
  have h := t.isLt
  have hN : cfg0.N = 10 := N_0
  omega

/-! ## Reading at coordinates, over the literal shapes -/

/-- An entry of the array whose row is t·10000 + r and whose column is j is entry (r, j) of row block t. -/
theorem rowsBlock_of_coords {α : Type} (A : S100000x128.Idx → α) (t : ℕ) (ht : t < 10) (y : S10000x128.Idx)
    (k : S100000x128.Idx) (hk0 : (k 0).val = t * 10000 + (y 0).val) (hk1 : (k 1).val = (y 1).val) :
    A k = Cert.Rows.rowsBlock A t y := by
  have h0 : (y 0).val < 10000 := (y 0).isLt
  have h1 : (y 1).val < 128 := (y 1).isLt
  unfold Cert.Rows.rowsBlock
  refine congrArg A (funext fun a => ?_)
  match a with
  | ⟨0, _⟩ => exact Fin.ext (by show (k 0).val = (t * 10000 + (y 0).val) % 100000; omega)
  | ⟨1, _⟩ => exact Fin.ext (by show (k 1).val = (y 1).val % 128; omega)

/-- Two indices with the same coordinates read the same entry. -/
theorem read_of_coords {α : Type} {S : Shape} (A : S.Idx → α) (k y : S.Idx) (h : ∀ a, (k a).val = (y a).val) :
    A k = A y :=
  congrArg A (funext fun a => Fin.ext (h a))

/-! ## The input blocks -/

/-- The feature window's block at point t is row block t of the feature array. -/
theorem iblk0_0_eq (c : Dev nD) (t : Fin cfg0.N) : iblk0 V c 0 t = Cert.Rows.rowsBlock (V c main_arg0) t.val := by
  obtain ⟨e0, e1, -⟩ := idx_facts0 t
  funext y
  refine rowsBlock_of_coords (V c main_arg0) t.val (point_lt t) y (((cfg0.win 0).blk t).view.emb y) ?_ ?_
  · show win0_0.index t (0 : Fin 2) * 10000 + 1 * (y 0).val = t.val * 10000 + (y 0).val
    rw [e0]; omega
  · show win0_0.index t (1 : Fin 2) * 128 + 1 * (y 1).val = (y 1).val
    rw [e1]; omega

/-- The weight window's block is the weight array. -/
theorem iblk0_1_eq (c : Dev nD) (t : Fin cfg0.N) : iblk0 V c 1 t = V c main_arg4 := by
  obtain ⟨-, -, e0, e1, -⟩ := idx_facts0 t
  funext y
  refine read_of_coords (S := S128x128) (V c main_arg4) (((cfg0.win 1).blk t).view.emb y) y fun a => ?_
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias window's block is the bias array. -/
theorem iblk0_2_eq (c : Dev nD) (t : Fin cfg0.N) : iblk0 V c 2 t = V c main_arg5 := by
  obtain ⟨-, -, -, -, e0, -⟩ := idx_facts0 t
  funext y
  refine read_of_coords (S := S128) (V c main_arg5) (((cfg0.win 2).blk t).view.emb y) y fun a => ?_
  match a with
  | ⟨0, _⟩ => show win0_2.index t (0 : Fin 1) * 128 + 1 * (y 0).val = (y 0).val; rw [e0]; omega

/-! ## The output array after the region -/

/-- The result: at (n, j), the payload of row block n / 10000 of the features, the weights and the bias,
    read at (n % 10000, j). -/
def proj (A : S100000x128.Idx → Elt F .f32) (W : Vec F S128x128 .f32) (b : Vec F S128 .f32) :
    S100000x128.Idx → Elt F .f32 :=
  fun i => k0_pay1 (Cert.Rows.rowsBlock A ((i 0).val / 10000)) W b
    (ix2 (⟨(i 0).val % 10000, Nat.mod_lt _ (by decide)⟩ : Fin 10000) (⟨(i 1).val % 128, Nat.mod_lt _ (by decide)⟩ : Fin 128))

/-- At an entry whose row is t·10000 + r and whose column is j, the result is the payload of row block t at (r, j). -/
theorem proj_of_coords (A : S100000x128.Idx → Elt F .f32) (W : Vec F S128x128 .f32) (b : Vec F S128 .f32)
    (t : ℕ) (y : S10000x128.Idx) (k : S100000x128.Idx)
    (hk0 : (k 0).val = t * 10000 + (y 0).val) (hk1 : (k 1).val = (y 1).val) :
    proj A W b k = k0_pay1 (Cert.Rows.rowsBlock A t) W b y := by
  have h0 : (y 0).val < 10000 := (y 0).isLt
  have h1 : (y 1).val < 128 := (y 1).isLt
  have hq : (k 0).val / 10000 = t := by omega
  show k0_pay1 (Cert.Rows.rowsBlock A ((k 0).val / 10000)) W b _ = _
  rw [hq]
  refine congrArg (k0_pay1 (Cert.Rows.rowsBlock A t) W b) (funext fun a => ?_)
  match a with
  | ⟨0, _⟩ => exact Fin.ext (by show (k 0).val % 10000 = (y 0).val; omega)
  | ⟨1, _⟩ => exact Fin.ext (by show (k 1).val % 128 = (y 1).val; omega)

/-- What point t writes back is block t of the result. -/
theorem flushed0_3_eq (c : Dev nD) (t : Fin cfg0.N) :
    (dat0 V c).flushed 3 t
      = ((cfg0.win 3).blk t).view.read (Elt F) (proj (V c main_arg0) (V c main_arg4) (V c main_arg5)) := by
  obtain ⟨-, -, -, -, -, e0, e1⟩ := idx_facts0 t
  show (cfg0.win 3).cut (grid0.coords t) ((dat0 V c).after 3 t) = _
  rw [after0_3, out0_3_eq, iblk0_0_eq, iblk0_1_eq, iblk0_2_eq]
  funext y
  refine (proj_of_coords (V c main_arg0) (V c main_arg4) (V c main_arg5) t.val y (((cfg0.win 3).blk t).view.emb y) ?_ ?_).symm
  · show win0_3.index t (0 : Fin 2) * 10000 + 1 * (y 0).val = t.val * 10000 + (y 0).val
    rw [e0]; omega
  · show win0_3.index t (1 : Fin 2) * 128 + 1 * (y 1).val = (y 1).val
    rw [e1]; omega

/-- An index of the output array is in point t's block iff each coordinate is in the block's range on its axis. -/
theorem mem_blk0_3 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v0).slice (win0_3.rect t)).set ↔ _
  rw [View.set_slice_whole, Rect.mem_set_unit]
  exact Iff.rfl

/-- The blocks tile the output array: row n is in the block of point n / 10000. -/
theorem cover0_3_arr (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by omega⟩, flush0_3 _, ?_⟩
  obtain ⟨-, -, -, -, -, e0, e1⟩ := idx_facts0 ⟨(i 0).val / 10000, by omega⟩
  rw [mem_blk0_3]
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- THE OUTPUT ARRAY after the region. -/
theorem final0_3 (c : Dev nD) : (dat0 V c).arrAt 3 cfg0.N
    = fun (i : S100000x128.Idx) => k0_pay1 (Cert.Rows.rowsBlock (V c main_arg0) ((i 0).val / 10000)) (V c main_arg4) (V c main_arg5)
        (ix2 (⟨(i 0).val % 10000, Nat.mod_lt _ (by decide)⟩ : Fin 10000) (⟨(i 1).val % 128, Nat.mod_lt _ (by decide)⟩ : Fin 128)) :=
  (dat0 V c).arrAt_eq_of_cover 3 (proj (V c main_arg0) (V c main_arg4) (V c main_arg5))
    (fun t _ => flushed0_3_eq V c t) cover0_3_arr

end Cert.KernelIdeal.Linear

end
-- ==== Proof.IdealSpec.lean ====
/-
  The value the kernel program computes, written as one function of its six argument arrays at the
  ideal instance (floats are extended reals, operations exact).

  The program has three stages.
  (1) A projection h = feature · Wᵀ + b, computed block by block: the 100000 rows are cut into ten
      consecutive blocks of 10000 rows, and the rows of block t are the block payload of block t of
      the features. `hK` is that array: row n is read from the payload of the block ⌊n / 10000⌋ at the
      row n mod 10000 inside the block.
  (2) A message-passing step on the whole array, agg = scatter-add over edge_dst of
      edge_val · h[edge_src]: `midK`, the composition of the host operations, kept in the order and with
      the nesting in which the program applies them.
  (3) A column mean of max(agg, 0), again over the ten row blocks: a [1,128] accumulator starts at the
      zero row and after block t holds the accumulator before plus the column sums of max(block t, 0).
      `accK A n` is the accumulator after blocks 0 … n. After the last block the accumulator is scaled by
      1/100000, and the [1,128] result is read as a vector of length 128: `outK`.
-/
import proofs.«111101_j4672924418326_1_alg».proof.KernelIdeal
import proofs.«111101_j4672924418326_1_alg».proof.Proof.Gen.KernelIdeal.Skeleton
import proofs.«111101_j4672924418326_1_alg».proof.Proof.Rows
import Idealize.ShloMosaic.PureOps.Ideal
import Idealize.ShloMosaic.Lib.ValueIdx

noncomputable section

namespace Cert.KernelIdeal.Spec

open Idealize.ShloMosaic Idealize.ShloMosaic.ValueIdx
open Cert.KernelIdeal.Gen (bcast_S1600000_S1600000x1_0 bcast_S_S1600000 bcast_S1600000x1_S1600000x128_0_1
  bcast_S_S100000x128 shapeCasts_S1x128_S128)

/-- The projection, row by row: entry (n, j) is entry (n mod 10000, j) of the block payload of block
    ⌊n / 10000⌋ of the features. -/
def hK (x : Vec Ideal S100000x128 .f32) (w : Vec Ideal S128x128 .f32) (b : Vec Ideal S128 .f32) :
    Vec Ideal S100000x128 .f32 :=
  fun i => Gen.k0_pay1 (Cert.Rows.rowsBlock x ((i 0).val / 10000)) w b
    (ix2 (⟨(i 0).val % 10000, Nat.mod_lt _ (by decide)⟩ : Fin 10000)
      (⟨(i 1).val % 128, Nat.mod_lt _ (by decide)⟩ : Fin 128))

/-- The message-passing step on a whole [100000,128] array h: negative source indices are wrapped by
    adding 100000, row e of the gathered array is row src e of h, it is scaled by val e, and the scaled
    rows are added into a zero array at the rows dst e. -/
def midK (h : Vec Ideal S100000x128 .f32) (src dst : (⟨S1600000, .i32⟩ : BufTy).Contents (Elt Ideal))
    (val : Vec Ideal S1600000 .f32) : Vec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))

/-- The accumulator of the column sums after the row blocks 0 … n of A. -/
def accK (A : Vec Ideal S100000x128 .f32) : ℕ → Vec Ideal S1x128 .f32
  | 0 => Gen.k1_pay2 (Cert.Rows.rowsBlock A 0) (Gen.k1_pay1 (F := Ideal))
  | n + 1 => Gen.k1_pay2 (Cert.Rows.rowsBlock A (n + 1)) (accK A n)

/-- The program's result: the scaled accumulator after the tenth block, read as a vector of length 128. -/
def outK (x : Vec Ideal S100000x128 .f32) (src dst : (⟨S1600000, .i32⟩ : BufTy).Contents (Elt Ideal))
    (val : Vec Ideal S1600000 .f32) (w : Vec Ideal S128x128 .f32) (b : Vec Ideal S128 .f32) :
    Vec Ideal S128 .f32 :=
  fun i => shapeCast S128 (Gen.k1_pay3 (accK (midK (hK x w b) src dst val) 9)) shapeCasts_S1x128_S128 i

end Cert.KernelIdeal.Spec

end
-- ==== Proof.IdealValueA.lean ====
/-
  What the buffers hold between the items of the idealized program, as functions of the launch memory:
  after the projection kernel's region its result array is the projection of the feature array, block of rows
  by block of rows; the three edge arrays are untouched; after the sixteen host operations the aggregated
  array is those operations' one composed function of the projection and the edge arrays; and the last host
  operation lays the [1,128] result of the reduction kernel out as a vector of 128.
-/
import proofs.«111101_j4672924418326_1_alg».proof.Proof.IdealRun
import proofs.«111101_j4672924418326_1_alg».proof.Proof.IdealLinearValue
import proofs.«111101_j4672924418326_1_alg».proof.Proof.IdealSpec
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Linear Cert.KernelIdeal.Spec Idealize.ShloMosaic.StableHlo

variable (m : (ℓ : Loc nD τ sig) → Buf (Elt Ideal) ℓ) (ρ : Dev nD → PrngReg)

/-- After the first region the projection's array holds the projection of the launch contents. -/
theorem W1_v0 (c : Dev nD) :
    W1 m ρ c (Proc.devRef .tc main_v0)
      = hK (m ((c : Thread nD τ).loc main_arg0)) (m ((c : Thread nD τ).loc main_arg4)) (m ((c : Thread nD τ).loc main_arg5)) :=
  (W1_arr m ρ c 3).trans ((final0_3 (V0 m ρ) c).trans rfl)

theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl

/-- After the sixteen host operations the aggregated array is their composed function of what they read. -/
theorem W2_v13 (c : Dev nD) :
    W2 m ρ c (Proc.devRef .tc main_v13)
      = midK (W1 m ρ c (Proc.devRef .tc main_v0)) (W1 m ρ c (Proc.devRef .tc main_arg1)) (W1 m ρ c (Proc.devRef .tc main_arg2)) (W1 m ρ c (Proc.devRef .tc main_arg3)) := by
  show StableHlo.after hostOps1 (W1 m ρ c) (Proc.devRef .tc main_v13) = _
  after_results
  rfl

/-- The last host operation lays the [1,128] array out as a vector of 128. -/
theorem W4_v15 (c : Dev nD) :
    W4 m ρ c (Proc.devRef .tc main_v15)
      = fun i => shapeCast S128 (W3 m ρ c (Proc.devRef .tc main_v14)) shapeCasts_S1x128_S128 i := by
  show StableHlo.after hostOps2 (W3 m ρ c) (Proc.devRef .tc main_v15) = _
  after_results
  rfl

end Cert.KernelIdeal.Whole

end
-- ==== Proof.IdealReduceBlocks.lean ====
/- The reduction kernel's input block at a point, as rows of its array: the window's block index at point t
   is t on the row axis and 0 on the column axis, and an element of a block sits in the array at
   index × size + its own coordinate, so block t is rows t·10000 … t·10000 + 9999. -/
import proofs.«111101_j4672924418326_1_alg».proof.Proof.IdealReduceBase
import proofs.«111101_j4672924418326_1_alg».proof.Proof.Rows
import Idealize.ShloMosaic.Lib.Pipeline.Value
import Idealize.ShloMosaic.Lib.ValueIdx
import Idealize.ShloMosaic.Lib.Tactic

set_option maxRecDepth 16384

noncomputable section

namespace Cert.KernelIdeal.Reduce

open Cert.KernelIdeal Cert.KernelIdeal.Gen
open Idealize.ShloMosaic Idealize.ShloMosaic.TcCoe Idealize.ShloMosaic.ValueIdx Idealize.SL.Sem

variable {F : FTy → Type} [FloatOps F] [Named F]

variable (V : (c : Dev nD) → (b : Ref sig .tc) → Buf (Elt F) ((c : Thread nD τ).loc b))

/-- At point t the input window is on row block t, column block 0 (decided once over the grid). -/
theorem idx_facts1 : ∀ t : Fin cfg1.N, win1_0.index t (0 : Fin 2) = t.val ∧ win1_0.index t (1 : Fin 2) = 0 :=
  (by decide +kernel : ∀ t : Fin grid1.N, _)

/-- The grid's points are numbered below ten. -/
theorem point1_lt (t : Fin cfg1.N) : t.val < 10 := by
  have h := t.isLt
  have hN : cfg1.N = 10 := N_1
  omega

/-- An entry of the array whose row is t·10000 + r and whose column is j is entry (r, j) of row block t:
    stated over the literal shapes, where a coordinate's bound is its type's. -/
theorem rowsBlock_of_coords {α : Type} (A : S100000x128.Idx → α) (t : ℕ) (ht : t < 10) (y : S10000x128.Idx)
    (k : S100000x128.Idx) (hk0 : (k 0).val = t * 10000 + (y 0).val) (hk1 : (k 1).val = (y 1).val) :
    A k = Cert.Rows.rowsBlock A t y := by
  have h0 : (y 0).val < 10000 := (y 0).isLt
  have h1 : (y 1).val < 128 := (y 1).isLt
  unfold Cert.Rows.rowsBlock
  refine congrArg A (funext fun a => ?_)
  match a with
  | ⟨0, _⟩ => exact Fin.ext (by show (k 0).val = (t * 10000 + (y 0).val) % 100000; omega)
  | ⟨1, _⟩ => exact Fin.ext (by show (k 1).val = (y 1).val % 128; omega)

/-- The input window's block at point t is row block t of its array. -/
theorem iblk1_0_eq (c : Dev nD) (t : Fin cfg1.N) : iblk1 V c 0 t = Cert.Rows.rowsBlock (V c main_v13) t.val := by
  obtain ⟨e0, e1⟩ := idx_facts1 t
  funext y
  refine rowsBlock_of_coords (V c main_v13) t.val (point1_lt t) y (((cfg1.win 0).blk t).view.emb y) ?_ ?_
  · show win1_0.index t (0 : Fin 2) * 10000 + 1 * (y 0).val = t.val * 10000 + (y 0).val
    rw [e0]; omega
  · show win1_0.index t (1 : Fin 2) * 128 + 1 * (y 1).val = (y 1).val
    rw [e1]; omega

end Cert.KernelIdeal.Reduce

end
-- ==== Proof.IdealReduceValue.lean ====
/- What the reduction region leaves in its output array. Each control case of the body stores whole
   buffers and loads whole buffers, so what a case leaves is its payload of what it found: the first
   point leaves in the accumulator the column sums of its rectified block added to the zero row (the
   accumulator is zeroed first, and the second store's payload reads it after that store); a later point
   adds the column sums of its block to what the point before left; the last point moreover stores the
   accumulator's multiple by the constant into the output block. By induction on the point the
   accumulator after point n is the n-fold recursion over the row blocks of the input array, and the one
   write-back, at the last point, writes the scaled accumulator over the whole [1,128] output array. -/
import proofs.«111101_j4672924418326_1_alg».proof.Proof.IdealReduce
import proofs.«111101_j4672924418326_1_alg».proof.Proof.IdealReduceBlocks
import proofs.«111101_j4672924418326_1_alg».proof.Proof.IdealSpec
import Idealize.ShloMosaic.Lib.Pipeline.Value
import Idealize.ShloMosaic.Lib.Tactic

set_option maxRecDepth 16384

noncomputable section

namespace Cert.KernelIdeal.Reduce

open Idealize.ShloMosaic Idealize.ShloMosaic.TcCoe Idealize.ShloMosaic.Tactic
open Idealize.SL Idealize.SL.Sem
open Idealize.ShloMosaic.Pipeline (Dat)
open Cert.KernelIdeal Cert.KernelIdeal.Gen

section Cases
variable {F : FTy → Type} [FloatOps F] [Named F]

/-- The offsets of every rectangle the body names are zero. -/
theorem zeros2 : (![0, 0] : Fin 2 → Nat) = fun _ => 0 := funext fun a => by fin_cases a <;> rfl

/-- First point: the accumulator is zeroed, then the column sums of the rectified block are added to it. The
    second store covers the whole buffer, and its payload read the buffer after the first store, which covered it too. -/
theorem soutA_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : cond1_0 i) (hc1 : ¬cond1_1 i) (x0 : Vec F S10000x128 .f32) :
    sout1_A_0 c i arg1 harg1 arg2 harg2 arg3 harg3 hc0 hc1 x0 = k1_pay2 x0 (k1_pay1 (F := F)) := by
  unfold sout1_A_0
  rw [View.read_writes_eq_canon _ _ _ (scover1_A_0 c i arg1 harg1 arg2 harg2 arg3 harg3 hc0 hc1 x0)]
  unfold kernelRun1_A
  dsimp only
  try sl_unfold_words
  rw [View.canon_cons_unit_zero (S := S1x128) zeros2, View.readCov_unit_zero (S := S1x128) _ zeros2]
  simp only [View.readAt_eq_ld, harg1.read_unread, View.ld_unit_zero (S := S10000x128) zeros2]

/-- A middle point adds the column sums of its rectified block to what the accumulator held. -/
theorem soutB_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : ¬cond1_1 i) (x0 : Vec F S10000x128 .f32) (xs0 : Vec F S1x128 .f32) :
    sout1_B_0 c i arg1 harg1 arg2 harg2 arg3 harg3 hc0 hc1 x0 xs0 = k1_pay2 x0 xs0 := by
  unfold sout1_B_0
  rw [View.read_writes_eq_canon _ _ _ (scover1_B_0 c i arg1 harg1 arg2 harg2 arg3 harg3 hc0 hc1 x0 xs0)]
  unfold kernelRun1_B
  dsimp only
  try sl_unfold_words
  rw [View.canon_unit_zero (S := S1x128) zeros2]
  simp only [View.readAt_eq_ld, harg1.read_unread, harg3.read_unread, View.ld_unit_zero (S := S10000x128) zeros2,
    View.ld_unit_zero (S := S1x128) zeros2]

/-- The last point does the same to the accumulator, -/
theorem soutC_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) :
    sout1_C_0 c i arg1 harg1 arg2 harg2 arg3 harg3 hc0 hc1 x0 xs0 = k1_pay2 x0 xs0 := by
  unfold sout1_C_0
  rw [View.read_writes_eq_canon _ _ _ (scover1_C_0 c i arg1 harg1 arg2 harg2 arg3 harg3 hc0 hc1 x0 xs0)]
  unfold kernelRun1_C
  dsimp only
  try sl_unfold_words
  rw [View.canon_unit_zero (S := S1x128) zeros2]
  simp only [View.readAt_eq_ld, harg1.read_unread, harg3.read_unread, View.ld_unit_zero (S := S10000x128) zeros2,
    View.ld_unit_zero (S := S1x128) zeros2]

/-- and stores into the output block the accumulator it has just written, scaled by the constant. -/
theorem outC_eq (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i) (hc1 : cond1_1 i) (x0 : Vec F S10000x128 .f32) (xs0 : Vec F S1x128 .f32) :
    out1_C_1 c i arg1 harg1 arg2 harg2 arg3 harg3 hc0 hc1 x0 xs0 = k1_pay3 (k1_pay2 x0 xs0) := by
  unfold out1_C_1
  rw [View.read_writes_eq_canon _ _ _ (cover1_C_1 c i arg1 harg1 arg2 harg2 arg3 harg3 hc0 hc1 x0 xs0)]
  unfold kernelRun1_C
  dsimp only
  try sl_unfold_words
  rw [View.canon_unit_zero (S := S1x128) zeros2, View.readCov_unit_zero (S := S1x128) _ zeros2]
  simp only [View.readAt_eq_ld, harg1.read_unread, harg3.read_unread, View.ld_unit_zero (S := S10000x128) zeros2,
    View.ld_unit_zero (S := S1x128) zeros2]

/-- The output window's block index is zero on both axes at every point (decided once over the grid). -/
theorem idx_facts1_out : ∀ t : Fin cfg1.N, win1_1.index t (0 : Fin 2) = 0 ∧ win1_1.index t (1 : Fin 2) = 0 :=
  (by decide +kernel : ∀ t : Fin grid1.N, _)

/-- Two indices with the same coordinates read the same entry. -/
theorem read_of_coords {α : Type} {S : Shape} (A : S.Idx → α) (k y : S.Idx) (h : ∀ a, (k a).val = (y a).val) :
    A k = A y :=
  congrArg A (funext fun a => Fin.ext (h a))

end Cases

/-! ## At the ideal instance: the accumulator and the output array -/

variable (V : (c : Dev nD) → (b : Ref sig .tc) → Buf (Elt Ideal) ((c : Thread nD τ).loc b))

/-- The accumulator after point n is the recursion over the row blocks 0 … n of the input array. -/
theorem scratch_eq_accK (c : Dev nD) (n : ℕ) (hn : n < cfg1.N) :
    (outsAt1 (F := Ideal) V c n hn).2 = Cert.KernelIdeal.Spec.accK (V c main_v13) n := by
  induction n with
  | zero =>
    refine (congrArg Prod.snd (outsAt1_A V c ⟨0, hn⟩ rfl (show ¬(0 : ℕ) = 9 by decide))).trans ?_
    dsimp only
    rw [soutA_eq, iblk1_0_eq]
    rfl
  | succ n ih =>
    by_cases h9 : n + 1 = 9
    · refine (congrArg Prod.snd (outsAt1_C V c ⟨n + 1, hn⟩ (Nat.succ_ne_zero n) h9)).trans ?_
      dsimp only
      rw [soutC_eq, iblk1_0_eq]
      show k1_pay2 _ (outsAt1 V c n (Nat.lt_of_succ_lt hn)).2 = _
      rw [ih]
      rfl
    · refine (congrArg Prod.snd (outsAt1_B V c ⟨n + 1, hn⟩ (Nat.succ_ne_zero n) h9)).trans ?_
      dsimp only
      rw [soutB_eq, iblk1_0_eq]
      show k1_pay2 _ (outsAt1 V c n (Nat.lt_of_succ_lt hn)).2 = _
      rw [ih]
      rfl

/-- The one write-back, at the last point, writes the scaled accumulator: block (0, 0) of the [1,128] array is the array. -/
theorem flushed1_1_eq (c : Dev nD) (t : Fin cfg1.N) (hf : (cfg1.win 1).flush t = true) :
    (dat1 (F := Ideal) V c).flushed 1 t
      = ((cfg1.win 1).blk t).view.read (Elt Ideal) (k1_pay3 (Cert.KernelIdeal.Spec.accK (V c main_v13) 9)) := by
  have hN : cfg1.N = 10 := N_1
  have h9 : t.val = 9 := by have := (flush1_1 t).mp hf; have := t.isLt; omega
  obtain ⟨e0, e1⟩ := idx_facts1_out t
  show (cfg1.win 1).cut (grid1.coords t) ((dat1 V c).after 1 t) = _
  rw [after1_1, outsAt1_C V c t (by omega) h9]
  dsimp only
  rw [outC_eq, iblk1_0_eq, scratch_eq_accK]
  have hacc : k1_pay2 (Cert.Rows.rowsBlock (V c main_v13) t.val) (Cert.KernelIdeal.Spec.accK (V c main_v13) (t.val - 1))
      = Cert.KernelIdeal.Spec.accK (V c main_v13) 9 := by
    rw [h9]; rfl
  rw [hacc]
  funext y
  refine (read_of_coords (S := S1x128) (k1_pay3 (Cert.KernelIdeal.Spec.accK (V c main_v13) 9))
    (((cfg1.win 1).blk t).view.emb y) y fun a => ?_).symm
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The last point's block is the whole output array. -/
theorem cover1_1_arr (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  refine ⟨t1_9, (flush1_1 t1_9).mpr rfl, ?_⟩
  obtain ⟨e0, e1⟩ := idx_facts1_out t1_9
  show i ∈ ((View.whole main_v14).slice (win1_1.rect t1_9)).set
  rw [View.set_slice_whole, Rect.mem_set_unit]
  intro a
  match a with
  | ⟨0, _⟩ =>
    show win1_1.index t1_9 (0 : Fin 2) * 1 ≤ (i 0).val ∧ (i 0).val < win1_1.index t1_9 (0 : Fin 2) * 1 + 1
    rw [e0]; omega
  | ⟨1, _⟩ =>
    show win1_1.index t1_9 (1 : Fin 2) * 128 ≤ (i 1).val ∧ (i 1).val < win1_1.index t1_9 (1 : Fin 2) * 128 + 128
    rw [e1]; omega

/-- THE OUTPUT ARRAY after the region: the accumulator after the tenth block, scaled by the constant. -/
theorem final1_1 (c : Dev nD) :
    (dat1 (F := Ideal) V c).arrAt 1 cfg1.N = k1_pay3 (Cert.KernelIdeal.Spec.accK (V c main_v13) 9) :=
  (dat1 (F := Ideal) V c).arrAt_eq_of_cover 1 (k1_pay3 (Cert.KernelIdeal.Spec.accK (V c main_v13) 9))
    (flushed1_1_eq V c) cover1_1_arr

end Cert.KernelIdeal.Reduce

end
-- ==== Proof.IdealValue.lean ====
/-
  The idealized program's run, read as a value: the result vector every final memory holds is one function of the
  six argument arrays at launch: the projection of the features block of rows by block of rows, the host
  operations' composed function of it and the edge arrays, the running column sums of the rectified blocks
  carried through the ten grid points, scaled at the last point and laid out as a vector.
-/
import proofs.«111101_j4672924418326_1_alg».proof.Proof.IdealValueA
import proofs.«111101_j4672924418326_1_alg».proof.Proof.IdealReduceValue

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Linear Cert.KernelIdeal.Reduce Cert.KernelIdeal.Spec

variable (m : (ℓ : Loc nD τ sig) → Buf (Elt Ideal) ℓ) (ρ : Dev nD → PrngReg)

/-- After the second region its output array holds the scaled accumulator of the aggregated array. -/
theorem W3_v14 (c : Dev nD) :
    W3 m ρ c (Proc.devRef .tc main_v14) = k1_pay3 (accK (W2 m ρ c (Proc.devRef .tc main_v13)) 9) :=
  (W3_arr m ρ c 1).trans (final1_1 (V2 m ρ) c)

/-- The result vector at the end, as a function of the launch memory. -/
theorem result_eq (c : Dev nD) :
    W4 m ρ c (Proc.devRef .tc main_v15)
      = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W4_v15, W3_v14, W2_v13, W1_v0, W1_arg1, W1_arg2, W1_arg3]
  rfl

/-- The run with its result named, the arguments unchanged. -/
theorem run_value : θ_run (defs (F := Ideal)) (onTc (τ := τ) (main (F := Ideal))) ⟨m, fun _ => 0, ρ⟩ (fun r => ∀ c : Dev nD,
      r.2.mem ((c.tc : Thread nD τ).loc main_v15)
        = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v15 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Whole

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.IdealPay.lean ====
/-
  The kernel's block payloads read at an index, at the ideal instance.

  * The projection's block payload is a dense layer: entry (r, j) is the sum over k of x (r, k) · w (j, k), plus b (j)
    (the weight is used transposed; rounding the operands is the identity on the extended reals; the matrix unit
    accumulates from zero).
  * The reduction's first payload is the zero row.
  * Its second payload adds to the accumulator, column by column, the sum over the block's rows of max(entry, 0).
  * Its third payload multiplies the accumulator by the named reciprocal, the real number 1/100000.
-/
import proofs.«111101_j4672924418326_1_alg».proof.Proof.Gen.KernelIdeal.Skeleton
import proofs.«111101_j4672924418326_1_alg».proof.Proof.LibAffine
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx
open Cert.KernelIdeal.Gen

/-! ## The contraction of the block product: which entries it multiplies -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The projection's block payload at (r, j): the sum over k of x (r, k) · w (j, k), plus b (j). -/
theorem k0_pay1_apply (x : Vec Ideal S10000x128 .f32) (w : Vec Ideal S128x128 .f32) (b : Vec Ideal S128 .f32)
    (r : Fin 10000) (j : Fin 128) :
    Gen.k0_pay1 x w b (ix2 r j) = (∑ k : Fin 128, x (ix2 r k) * w (ix2 j k)) + b (ix1 j) := by
  unfold Gen.k0_pay1
  dsimp only
  refine (congrFun (Cert.LibAffine.coreAffine_eq dot_S10000x128_S128x128_S10000x128_1_0_0_1_n_n rfl rfl lhs0 lhs1 rhs0 rhs1
    broadcasts_S1x128_S10000x128 none _ _ _) (ix2 r j)).trans ?_
  rw [Cert.LibAffine.affine_ix2]
  unfold Cert.LibAffine.affineAt
  rw [shapeCast_a_1a_apply]
  refine congrArg (· + b (ix1 j)) (Finset.sum_congr rfl fun k _ => ?_)
  refine congrArg (x (ix2 r k) * ·) ((transpose_ix2_apply _ transposes_S128x128_p1_0_S128x128 k j).trans ?_)
  rfl

/-- The reduction's first payload is the zero row. -/
theorem k1_pay1_apply (i : S1x128.Idx) : Gen.k1_pay1 (F := Ideal) i = 0 := by
  unfold Gen.k1_pay1
  rw [shapeCast_self]
  exact Ideal.ofBits_zero_f32

/-- The reduction's second payload at column j: the accumulator's entry plus the sum over the block's rows r of
    max(block (r, j), 0). -/
theorem k1_pay2_apply (blk : Vec Ideal S10000x128 .f32) (a : Vec Ideal S1x128 .f32) (j : Fin 128) :
    Gen.k1_pay2 blk a (ix2 (0 : Fin 1) j) = a (ix2 (0 : Fin 1) j) + ∑ r : Fin 10000, max (blk (ix2 r j)) 0 := by
  unfold Gen.k1_pay2
  dsimp only
  rw [shapeCast_self, shapeCast_self, addf_apply, shapeCast_a_1a_apply]
  refine congrArg (a (ix2 (0 : Fin 1) j) + ·) ?_
  refine (Ideal.multiReduction_add_single _ 0x00000000#32 reduces_S10000x128_S128 (.inl rfl) rfl (ix1 j)).trans ?_
  refine Finset.sum_congr rfl fun r _ => ?_
  have e : reduces_S10000x128_S128.lift (ix1 j) r = ix2 (⟨r.val, r.isLt⟩ : Fin 10000) j :=
    funext fun ax => Fin.ext (by match ax with | ⟨0, _⟩ => rfl | ⟨1, _⟩ => rfl)
  rw [e, maximumf_apply, broadcast_apply]
  exact congrArg (max (blk (ix2 (⟨r.val, r.isLt⟩ : Fin 10000) j))) Ideal.ofBits_zero_f32

/-- The named reciprocal denotes the real number 1/100000. -/
theorem inv_100000 :
    Named.named (F := Ideal) Cert.KernelIdeal.κ "inv_100000" (φ := .f32) 0x3727C5AC#32 = ((1 / 100000 : ℝ) : EReal) :=
  IdealRules.named_const.ideal_named_scalar _ _ _ _ rfl

/-- The reduction's third payload: the accumulator times 1/100000, entry by entry. -/
theorem k1_pay3_apply (a : Vec Ideal S1x128 .f32) (i : S1x128.Idx) :
    Gen.k1_pay3 a i = a i * ((1 / 100000 : ℝ) : EReal) := by
  unfold Gen.k1_pay3
  rw [mulf_apply, broadcast_apply, inv_100000]

end Cert.KernelIdeal.Pay

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.IdealSum.lean ====
/-
  The kernel program's value as sums over the whole arrays.

  * The projection computed block by block is the dense layer on the whole array: row n lies in block ⌊n / 10000⌋ at
    the row n mod 10000, and ⌊n / 10000⌋ · 10000 + n mod 10000 = n.
  * The accumulator after the blocks 0 … n holds, in column j, the sum over those blocks of the sum over each block's
    10000 rows of max(entry, 0); the ten blocks of 10000 consecutive rows exhaust the 100000 rows, so after the tenth
    block it holds the sum over all rows. Only commutativity and associativity of the extended reals' sum are used.
  * The result at j is that sum times 1/100000.
-/
import proofs.«111101_j4672924418326_1_alg».proof.Proof.IdealSpec
import proofs.«111101_j4672924418326_1_alg».proof.Proof.IdealPay
import proofs.«111101_j4672924418326_1_alg».proof.Proof.LibBlockSum
import Idealize.ShloMosaic.Lib.ValueLayout

noncomputable section

namespace Cert.KernelIdeal.Spec

open Idealize.ShloMosaic Idealize.ShloMosaic.ValueIdx
open Cert.KernelIdeal.Gen (shapeCasts_S1x128_S128)

/-- The projection at (n, j): the sum over k of x (n, k) · w (j, k), plus b (j). -/
theorem hK_ix2 (x : Vec Ideal S100000x128 .f32) (w : Vec Ideal S128x128 .f32) (b : Vec Ideal S128 .f32)
    (n : Fin 100000) (j : Fin 128) :
    hK x w b (ix2 n j) = (∑ k : Fin 128, x (ix2 n k) * w (ix2 j k)) + b (ix1 j) := by
  unfold hK
  show Gen.k0_pay1 (Cert.Rows.rowsBlock x (n.val / 10000)) w b
    (ix2 (⟨n.val % 10000, Nat.mod_lt _ (by decide)⟩ : Fin 10000) (⟨j.val % 128, Nat.mod_lt _ (by decide)⟩ : Fin 128)) = _
  have hj : (⟨j.val % 128, Nat.mod_lt _ (by decide)⟩ : Fin 128) = j := Fin.ext (Nat.mod_eq_of_lt j.isLt)
  rw [hj, Pay.k0_pay1_apply]
  refine congrArg (· + b (ix1 j)) (Finset.sum_congr rfl fun k _ => ?_)
  rw [Cert.Rows.rowsBlock_apply x (n.val / 10000) (by have := n.isLt; omega)]
  refine congrArg (fun t : Fin 100000 => x (ix2 t k) * w (ix2 j k)) (Fin.ext ?_)
  show n.val / 10000 * 10000 + n.val % 10000 = n.val
  exact Nat.div_add_mod' n.val 10000

/-- Column j of max(A, 0) as a function of the row number (zero past the last row). -/
def reluCol (A : Vec Ideal S100000x128 .f32) (j : Fin 128) (m : ℕ) : EReal :=
  if h : m < 100000 then max (A (ix2 (⟨m, h⟩ : Fin 100000) j)) 0 else 0

theorem reluCol_lt (A : Vec Ideal S100000x128 .f32) (j : Fin 128) (m : ℕ) (h : m < 100000) :
    reluCol A j m = max (A (ix2 (⟨m, h⟩ : Fin 100000) j)) 0 := dif_pos h

/-- The accumulator after the blocks 0 … n, in column j: the sum over those blocks of the block's column sums. -/
theorem accK_ix2 (A : Vec Ideal S100000x128 .f32) (j : Fin 128) :
    ∀ n : ℕ, n < 10 → accK A n (ix2 (0 : Fin 1) j)
      = ∑ t ∈ Finset.range (n + 1), ∑ r : Fin 10000, reluCol A j (t * 10000 + r.val) := by
  have blk : ∀ t : ℕ, t < 10 → ∑ r : Fin 10000, max (Cert.Rows.rowsBlock A t (ix2 r j)) 0
      = ∑ r : Fin 10000, reluCol A j (t * 10000 + r.val) := fun t ht =>
    Finset.sum_congr rfl fun r _ => by
      rw [Cert.Rows.rowsBlock_apply A t ht]
      exact (reluCol_lt A j _ _).symm
  intro n
  induction n with
  | zero =>
    intro h0
    show Gen.k1_pay2 (Cert.Rows.rowsBlock A 0) (Gen.k1_pay1 (F := Ideal)) (ix2 (0 : Fin 1) j) = _
    rw [Pay.k1_pay2_apply, Pay.k1_pay1_apply, zero_add, blk 0 h0, Finset.sum_range_one]
  | succ n ih =>
    intro hn
    show Gen.k1_pay2 (Cert.Rows.rowsBlock A (n + 1)) (accK A n) (ix2 (0 : Fin 1) j) = _
    rw [Pay.k1_pay2_apply, ih (by omega), blk (n + 1) hn, Finset.sum_range_succ _ (n + 1)]

/-- The accumulator after the tenth block, in column j: the sum over all rows n of max(A (n, j), 0). -/
theorem accK_nine (A : Vec Ideal S100000x128 .f32) (j : Fin 128) :
    accK A 9 (ix2 (0 : Fin 1) j) = ∑ n : Fin 100000, max (A (ix2 n j)) 0 := by
  rw [accK_ix2 A j 9 (by decide)]
  refine (Cert.LibBlockSum.sum_fin_blocks (reluCol A j) 10 10000).trans ?_
  exact Finset.sum_congr rfl fun n _ => reluCol_lt A j n.val n.isLt

/-- The program's result at j: the sum over all rows of max(agg (n, j), 0), times 1/100000. -/
theorem outK_ix1 (x : Vec Ideal S100000x128 .f32) (src dst : (⟨S1600000, .i32⟩ : BufTy).Contents (Elt Ideal))
    (val : Vec Ideal S1600000 .f32) (w : Vec Ideal S128x128 .f32) (b : Vec Ideal S128 .f32) (j : Fin 128) :
    outK x src dst val w b (ix1 j)
      = (∑ n : Fin 100000, max (midK (hK x w b) src dst val (ix2 n j)) 0) * ((1 / 100000 : ℝ) : EReal) := by
  unfold outK
  rw [shapeCast_1a_a_apply, Pay.k1_pay3_apply, accK_nine]

end Cert.KernelIdeal.Spec

end
-- ==== Proof.IdealRef.lean ====
/-
  The reference program's value, read at an index, at the ideal instance.

  * Its projection is the same dense layer as the kernel's: entry (n, j) is the sum over k of x (n, k) · w (j, k),
    plus b (j).
  * Its message-passing step is the same composition of whole-array operations as the kernel program's, applied to
    the reference's projection. It is carried as one function and never opened.
  * Its result at j is the quotient by 100000 of zero plus the sum over all rows n of max(agg (n, j), 0).
-/
import proofs.«111101_j4672924418326_1_alg».proof.Proof.Gen.ReferenceIdeal.Read
import proofs.«111101_j4672924418326_1_alg».proof.Proof.IdealSpec
import proofs.«111101_j4672924418326_1_alg».proof.Proof.LibAffine

noncomputable section

namespace Cert.ReferenceIdeal.RefValue

open Idealize.ShloMosaic Idealize.ShloMosaic.ValueIdx
open Cert.ReferenceIdeal Cert.ReferenceIdeal.Gen

/-- The reference's projection at (n, j): the sum over k of x (n, k) · w (j, k), plus b (j). -/
theorem val_main_v4_ix2 (x : Vec Ideal S100000x128 .f32) (w : Vec Ideal S128x128 .f32) (b : Vec Ideal S128 .f32)
    (n : Fin 100000) (j : Fin 128) :
    Read.val_main_v4 (F := Ideal) x w b (ix2 n j) = (∑ k : Fin 128, x (ix2 n k) * w (ix2 j k)) + b (ix1 j) := by
  unfold Read.val_main_v4 Read.val_main_v1 Read.val_main_v3 Read.val_main_v2 Read.val_main_v0
  refine (congrFun (Cert.LibAffine.hostAffine_eq dot_S100000x128_S128x128_S100000x128_1_0_0_1_n_n rfl rfl
    Read.lhs_main_v1_0 Read.lhs_main_v1_1 Read.rhs_main_v1_0 Read.rhs_main_v1_1 bcast_S1x128_S100000x128_0_1 none
    _ _ _) (ix2 n j)).trans ?_
  rw [Cert.LibAffine.affine_ix2]
  unfold Cert.LibAffine.affineAt
  have eb : broadcastInDim S1x128 ![1] bcast_S128_S1x128_1 b (ix2 (0 : Fin 1) j) = b (ix1 j) :=
    broadcastInDim_apply _ bcast_S128_S1x128_1 b (ix2 (0 : Fin 1) j) (ix1 j) (fun a => match a with
      | ⟨0, _⟩ => by show j.val = if (128 : Nat) = 1 then 0 else j.val; rw [if_neg (by decide)])
  rw [eb]
  refine congrArg (· + b (ix1 j)) (Finset.sum_congr rfl fun k _ => ?_)
  exact congrArg (x (ix2 n k) * ·) (transpose_ix2_apply w transposes_S128x128_S128x128_1_0 k j)

/-- The reference's message-passing step is the kernel program's, applied to the reference's projection. -/
theorem val_main_v17_eq (x : Vec Ideal S100000x128 .f32) (src dst : (⟨S1600000, .i32⟩ : BufTy).Contents (Elt Ideal))
    (val : Vec Ideal S1600000 .f32) (w : Vec Ideal S128x128 .f32) (b : Vec Ideal S128 .f32) :
    Read.val_main_v17 (F := Ideal) x src dst val w b
      = Cert.KernelIdeal.Spec.midK (Read.val_main_v4 (F := Ideal) x w b) src dst val := by
  unfold Read.val_main_v17 Read.val_main_v14 Read.val_main_v12 Read.val_main_v13 Read.val_main_v5 Read.val_main_v11
    Read.val_main_v10 Read.val_main_v7 Read.val_main_v9 Read.val_main_v6 Read.val_main_v8 Read.val_main_c Read.val_main_c_0
    Read.val_main_v15 Read.val_main_v16 Read.val_main_cst Cert.KernelIdeal.Spec.midK
  generalize Read.val_main_v4 (F := Ideal) x w b = h
  rfl

end Cert.ReferenceIdeal.RefValue

end
-- ==== Proof.IdealBridge.lean ====
/-
  The kernel program and the reference compute one function of the six argument arrays, at the ideal instance.

  Both projections are the dense layer x · Wᵀ + b (the same sum over k, entry by entry); both apply the same
  message-passing step to it; the kernel's ten block sums of max(agg, 0) regroup the reference's one sum over all
  rows; and multiplying by the real 1/100000 is dividing by 100000 on every extended real.
-/
import proofs.«111101_j4672924418326_1_alg».proof.Proof.IdealSum
import proofs.«111101_j4672924418326_1_alg».proof.Proof.IdealRef

noncomputable section

namespace Cert.KernelIdeal.Spec

open Idealize.ShloMosaic Idealize.ShloMosaic.ValueIdx

/-- The reference's divisor denotes the real number 100000. -/
theorem ofBits_100000 : Ideal.ofBits .f32 0x47C35000#32 = ((100000 : ℝ) : EReal) := by
  simp [Ideal.ofBits, Ideal.ieee, -EReal.coe_mul]; norm_num

/-- The projection computed block by block is the reference's projection. -/
theorem hK_eq (x : Vec Ideal S100000x128 .f32) (w : Vec Ideal S128x128 .f32) (b : Vec Ideal S128 .f32) :
    hK x w b = Cert.ReferenceIdeal.Read.val_main_v4 (F := Ideal) x w b := by
  funext i
  obtain ⟨n, j, rfl⟩ : ∃ (n : Fin 100000) (j : Fin 128), i = ix2 n j := ⟨i 0, i 1, eq_ix2 i⟩
  rw [hK_ix2, Cert.ReferenceIdeal.RefValue.val_main_v4_ix2]

/-- The reference's result at j: zero plus the sum over all rows n of max(agg (n, j), 0), divided by 100000. -/
theorem ref_ix1 (x : Vec Ideal S100000x128 .f32) (src dst : (⟨S1600000, .i32⟩ : BufTy).Contents (Elt Ideal))
    (val : Vec Ideal S1600000 .f32) (w : Vec Ideal S128x128 .f32) (b : Vec Ideal S128 .f32) (j : Fin 128) :
    Cert.ReferenceIdeal.Read.val_main_v21 (F := Ideal) x src dst val w b (ix1 j)
      = Ideal.div (0 + ∑ n : Fin 100000,
          max (midK (Cert.ReferenceIdeal.Read.val_main_v4 (F := Ideal) x w b) src dst val (ix2 n j)) 0)
        ((100000 : ℝ) : EReal) := by
  rw [Cert.ReferenceIdeal.Read.val_main_v21_apply, Cert.ReferenceIdeal.Read.val_main_v19_apply,
    Cert.ReferenceIdeal.Read.val_main_v20_apply, Cert.ReferenceIdeal.Read.val_main_cst_2_apply,
    Cert.ReferenceIdeal.Read.val_main_cst_1_apply, Ideal.hostDivf_def, Ideal.ofBits_def, Ideal.ofBits_def,
    Ideal.ofBits_zero_f32, ofBits_100000]
  refine congrArg (fun s => Ideal.div (0 + s) ((100000 : ℝ) : EReal)) (Finset.sum_congr rfl fun n _ => ?_)
  rw [Cert.ReferenceIdeal.Read.val_main_v18_apply, Cert.ReferenceIdeal.Read.val_main_call0_v0_apply,
    Cert.ReferenceIdeal.Read.val_main_call0_cst_apply, Cert.ReferenceIdeal.RefValue.val_main_v17_eq,
    Ideal.maximumf_def, Ideal.ofBits_def, Ideal.ofBits_zero_f32]
  exact congrArg (fun i => max (midK (Cert.ReferenceIdeal.Read.val_main_v4 (F := Ideal) x w b) src dst val i) 0)
    (funext fun a => Fin.ext (by match a with | ⟨0, _⟩ => rfl | ⟨1, _⟩ => rfl))

/-- The kernel program's result is the reference's. -/
theorem outK_eq_reference (x : Vec Ideal S100000x128 .f32) (src dst : (⟨S1600000, .i32⟩ : BufTy).Contents (Elt Ideal))
    (val : Vec Ideal S1600000 .f32) (w : Vec Ideal S128x128 .f32) (b : Vec Ideal S128 .f32) :
    outK x src dst val w b = Cert.ReferenceIdeal.Read.val_main_v21 (F := Ideal) x src dst val w b := by
  funext i
  obtain ⟨j, rfl⟩ : ∃ j : Fin 128, i = ix1 j := ⟨i 0, eq_ix1 i⟩
  rw [outK_ix1, ref_ix1, hK_eq, zero_add, Ideal.div_coe (by norm_num : (100000 : ℝ) ≠ 0)]

end Cert.KernelIdeal.Spec

end
-- ==== Proof.lean ====
/-
  Three frames, the one rewrite of the idealization, and the equivalence of the idealized kernel program
  with the idealized reference over the extended reals.

  The kernel program computes  mean over the 100000 nodes of relu(A · (X Wᵀ + b))  in four steps: a tiled
  matrix kernel for X Wᵀ + b (ten blocks of 10000 rows), host operations for the sparse product (gather
  the rows of the edges' sources, scale by the edge values, scatter-add by destination), a second kernel that
  carries a [1,128] accumulator through the same ten row blocks — zeroed at the first block, the column sums
  of the rectified block added at each, multiplied by 1/100000 after the last — and a reshape. The reference
  computes the projection by one matrix product, the same sparse product, the rectifier, one sum over all rows
  and a division by 100000.

  Frames. Each kernel program (at the word-level instance and at the ideal one) runs as four items — region,
  host operations, region, host operation — and every argument array ends as launched; the reference's frame
  is its run with the result dropped.
  The rewrite. The constant the second kernel multiplies by is named 1/100000; the name's table says so.
  The value. At the ideal instance a change of float format is the identity, a matrix product into a zero
  accumulator is the plain sum over the contracted axis, and addition of extended reals is commutative and
  associative, so the ten block sums regroup into the one sum over all rows; multiplying by the real 1/100000
  is dividing by 100000 on every extended real. The middle host operations are the same function on both
  sides, applied to equal projections. No finiteness of the inputs is used.
-/
import proofs.«111101_j4672924418326_1_alg».proof.Defs
import proofs.«111101_j4672924418326_1_alg».proof.Proof.Gen.Kernel
import proofs.«111101_j4672924418326_1_alg».proof.Proof.Gen.KernelIdeal
import proofs.«111101_j4672924418326_1_alg».proof.Proof.Gen.ReferenceIdeal
import proofs.«111101_j4672924418326_1_alg».proof.Proof.Gen.ReferenceIdeal.Run
import proofs.«111101_j4672924418326_1_alg».proof.Proof.Gen.ReferenceIdeal.Read
import proofs.«111101_j4672924418326_1_alg».proof.Proof.Gen.Pre_finite_inputs
import proofs.«111101_j4672924418326_1_alg».proof.Proof.BitsRun
import proofs.«111101_j4672924418326_1_alg».proof.Proof.IdealValue
import proofs.«111101_j4672924418326_1_alg».proof.Proof.IdealBridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Whole.frame m ρ
/-- So does the idealized kernel program. -/
theorem frame_ki : Cert.frame_KernelIdeal := fun m ρ _ => Cert.KernelIdeal.Whole.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite: the named constant denotes 1/100000 at the ideal instance, by the table. -/
theorem preserves : Cert.preserves_Kernel_KernelIdeal :=
  IdealRules.named_const.statement Cert.KernelIdeal.κ "inv_100000" .f32 0x3727C5AC#32 ((1 / 100000 : ℝ) : EReal) rfl

/-- Both idealized programs end at the same result: the kernel program's run names its result as one function
    of the arguments, and the reference's composed term is that function. -/
theorem algebraic : Cert.algebraic_KernelIdeal_ReferenceIdeal := by
  intro m ρ m' ρ' _ hagree
  refine ⟨fun c => Cert.KernelIdeal.Spec.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v21_eq _ _ _ _ _ _).trans (Cert.KernelIdeal.Spec.outK_eq_reference _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
